-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S2x8x128 : Shape := ⟨3, ![2, 8, 128]⟩
abbrev S2x1x512x512 : Shape := ⟨4, ![2, 1, 512, 512]⟩
abbrev S1x8x128 : Shape := ⟨3, ![1, 8, 128]⟩
abbrev S8x128 : Shape := ⟨2, ![8, 128]⟩
abbrev S2x512x512 : Shape := ⟨3, ![2, 512, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1x128 : Shape := ⟨2, ![1, 128]⟩
abbrev S128 : Shape := ⟨1, ![128]⟩
abbrev S1x1x128 : Shape := ⟨3, ![1, 1, 128]⟩
abbrev S2x5x1 : Shape := ⟨3, ![2, 5, 1]⟩
abbrev S2x5 : Shape := ⟨2, ![2, 5]⟩
abbrev S_ : Shape := ⟨0, ![]⟩
abbrev S5 : Shape := ⟨1, ![5]⟩

abbrev nBuf : Space → Nat
  | .hbm => 39
  | .vmem => 11
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S2x8x128, .f32⟩
  | .hbm, ⟨3, _⟩ => ⟨S2x5x1, .f32⟩
  | .hbm, ⟨4, _⟩ => ⟨S2x5, .f32⟩
  | .hbm, ⟨5, _⟩ => ⟨S_, .f32⟩
  | .hbm, ⟨6, _⟩ => ⟨S5, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v218 : BitVec 1 := Scalar.cmpi .eq arg1 c15_i32
  let v219 : BitVec 32 := Scalar.extui v218
  let c0_i32_100 : BitVec 32 := 0#32
  let v220 : BitVec 1 := Scalar.cmpi .ne v219 c0_i32_100
  v220

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2x1x512x512_S2x1x512x512_0_0_0_0 : ∀ a, (![0, 0, 0, 0] : Fin 4 → Nat) a + S2x1x512x512.size a ≤ S2x1x512x512.size a
  h_S2x1x512x512 : 0 < S2x1x512x512.numel
  shapeCasts_S2x1x512x512_S2x512x512 : S2x1x512x512.ShapeCasts S2x512x512
  reduces_S2x512x512_S512x512 : S2x512x512.Reduces [0] S512x512
  reduces_S512x512_S512 : S512x512.Reduces [0] S512
  shapeCasts_S512_S1x512 : S512.ShapeCasts S1x512
  reduces_S1x512_S1 : S1x512.Reduces [1] S1
  shapeCasts_S1_S1x1 : S1.ShapeCasts S1x1
  natLt_1_32 : 1 < 32
  rotates_S2x512x512_d1 : S2x512x512.Rotates 1 none
  iota_S2x512x512_d1_w32 : S2x512x512.Iotas .tc 32 [1]
  rotates_S2x512x512_d2 : S2x512x512.Rotates 2 none
  iota_S2x512x512_d2_w32 : S2x512x512.Iotas .tc 32 [2]
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  inb_S8x128_S1x128_0_0 : ∀ a, (![0, 0] : Fin 2 → Nat) a + S1x128.size a ≤ S8x128.size a
  h_S1x128 : 0 < S1x128.numel
  shapeCasts_S1x128_S128 : S1x128.ShapeCasts S128
  inb_S1x8x128_S1x1x128_0_0_0 : ∀ a, (![0, 0, 0] : Fin 3 → Nat) a + S1x1x128.size a ≤ S1x8x128.size a
  h_S1x1x128 : 0 < S1x1x128.numel
  shapeCasts_S1x1x128_S128 : S1x1x128.ShapeCasts S128
  shapeCasts_S128_S1x1x128 : S128.ShapeCasts S1x1x128
  inb_S1x8x128_S1x1x128_0_1_0 : ∀ a, (![0, 1, 0] : Fin 3 → Nat) a + S1x1x128.size a ≤ S1x8x128.size a
  inb_S1x8x128_S1x1x128_0_2_0 : ∀ a, (![0, 2, 0] : Fin 3 → Nat) a + S1x1x128.size a ≤ S1x8x128.size a
  inb_S1x8x128_S1x1x128_0_3_0 : ∀ a, (![0, 3, 0] : Fin 3 → Nat) a + S1x1x128.size a ≤ S1x8x128.size a
  inb_S1x8x128_S1x1x128_0_4_0 : ∀ a, (![0, 4, 0] : Fin 3 → Nat) a + S1x1x128.size a ≤ S1x8x128.size a
  slices_S2x8x128_S2x5x1_0_0_0 : S2x8x128.Slices ![0, 0, 0] S2x5x1
  shapeCasts_S2x5x1_S2x5 : S2x5x1.ShapeCasts S2x5
  reducesTo_S2x5_S5_d0 : S2x5.ReducesTo [0] S5
  h_S_ : 0 < S_.numel
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x512.size a ≤ S64x1x512x512.size a
  hwx0_0 : ∀ i : grid0.Coords, EltTy.bits .f32 = 32 ∨ (Rect.block (s := S64x1x512x512) S2x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S64x1x512x512.size a
  hwx0_1 : ∀ i : grid0.Coords, EltTy.bits .f32 = 32 ∨ (Rect.block (s := S64x1x512x512) S2x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S2x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S_ : Shape := ⟨0, ![]⟩
abbrev S64x1x514x514 : Shape := ⟨4, ![64, 1, 514, 514]⟩

abbrev nBuf : Space → Nat
  | .hbm => 122
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S_, .f32⟩
  | .hbm, ⟨3, _⟩ => ⟨S64x1x512x512, .f32⟩
  | .hbm, ⟨4, _⟩ => ⟨S64x1x512x512, .f32⟩
  | .hbm, ⟨5, _⟩ => ⟨S64x1x512x512, .f32⟩
  | .hbm, ⟨6, _⟩ => ⟨S64x1x512x512, .f32⟩
  | .hbm, ⟨7, _⟩ => ⟨S64x1x512x512, .f32⟩
  | .hbm, ⟨8, _⟩ => ⟨S64x1x512x512, .f32⟩
  | .hbm, ⟨9, _⟩ => ⟨S64x1x512x512, .f32⟩
  | .hbm, ⟨10, _⟩ => ⟨S64x1x512x512, .f32⟩
  | .hbm, ⟨11, _⟩ => ⟨S64x1x512x512, .f32⟩
  | .hbm, ⟨12, _⟩ => ⟨S64x1x512x512, .f32⟩
  | .hbm, ⟨13, _⟩ => ⟨S64x1x512x512, .f32⟩
  | .hbm, ⟨14, _⟩ => ⟨S_, .f32⟩
  | .hbm, ⟨15, _⟩ => ⟨S64x1x512x512, .f32⟩
  | .hbm, ⟨16, _⟩ => ⟨S64x1x512x512, .f32⟩
  | .hbm, ⟨17, _⟩ => ⟨S_, .f32⟩
  | .hbm, ⟨18, _⟩ => ⟨S64x1x512x512, .f32⟩
  | .hbm, ⟨19, _⟩ => ⟨S64x1x512x512, .f32⟩
  | .hbm, ⟨20, _⟩ => ⟨S_, .f32⟩
  | .hbm, ⟨21, _⟩ => ⟨S64x1x512x512, .f32⟩
  | .hbm, ⟨22, _⟩ => ⟨S64x1x512x512, .f32⟩
  | .hbm, ⟨23, _⟩ => ⟨S64x1x512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64x1x512x512, .f32⟩
  | .hbm, ⟨29, _⟩ => ⟨S64x1x512x512, .f32⟩
  | .hbm, ⟨30, _⟩ => ⟨S_, .f32⟩
  | .hbm, ⟨31, _⟩ => ⟨S64x1x512x512, .f32⟩
  | .hbm, ⟨32, _⟩ => ⟨S64x1x512x512, .f32⟩
  | .hbm, ⟨33, _⟩ => ⟨S_, .f32⟩
  | .hbm, ⟨34, _⟩ => ⟨S64x1x512x512, .f32⟩
  | .hbm, ⟨35, _⟩ => ⟨S64x1x512x512, .f32⟩
  | .hbm, ⟨36, _⟩ => ⟨S64x1x512x512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64x1x512x512, .f32⟩
  | .hbm, ⟨55, _⟩ => ⟨S64x1x512x512, .i1⟩
  | .hbm, ⟨56, _⟩ => ⟨S_, .i1⟩
  | .hbm, ⟨57, _⟩ => ⟨S64x1x514x514, .i1⟩
  | .hbm, ⟨58, _⟩ => ⟨S64x1x512x512, .i1⟩
  | .hbm, ⟨59, _⟩ => ⟨S64x1x512x512, .i1⟩
  | .hbm, ⟨60, _⟩ => ⟨S64x1x512x512, .i1⟩
  | .hbm, ⟨61, _⟩ => ⟨S64x1x512x512, .i1⟩
  | .hbm, ⟨62, _⟩ => ⟨S64x1x512x512, .i1⟩
  | .hbm, ⟨63, _⟩ => ⟨S64x1x512x512, .i1⟩
  | .hbm, ⟨64, _⟩ => ⟨S64x1x512x512, .i1⟩
  | .hbm, ⟨65, _⟩ => ⟨S64x1x512x512, .i1⟩
  | .hbm, ⟨66, _⟩ => ⟨S64x1x512x512, .i1⟩
  | .hbm, ⟨67, _⟩ => ⟨S_, .i1⟩
  | .hbm, ⟨68, _⟩ => ⟨S64x1x514x514, .i1⟩
  | .hbm, ⟨69, _⟩ => ⟨S64x1x512x512, .i1⟩
  | .hbm, ⟨70, _⟩ => ⟨S64x1x512x512, .i1⟩
  | .hbm, ⟨71, _⟩ => ⟨S64x1x512x512, .i1⟩
  | .hbm, ⟨72, _⟩ => ⟨S64x1x512x512, .i1⟩
  | .hbm, ⟨73, _⟩ => ⟨S64x1x512x512, .i1⟩
  | .hbm, ⟨74, _⟩ => ⟨S64x1x512x512, .i1⟩
  | .hbm, ⟨75, _⟩ => ⟨S64x1x512x512, .i1⟩
  | .hbm, ⟨76, _⟩ => ⟨S64x1x512x512, .i1⟩
  | .hbm, ⟨77, _⟩ => ⟨S64x1x512x512, .i1⟩
  | .hbm, ⟨78, _⟩ => ⟨S_, .i1⟩
  | .hbm, ⟨79, _⟩ => ⟨S64x1x514x514, .i1⟩
  | .hbm, ⟨80, _⟩ => ⟨S64x1x512x512, .i1⟩
  | .hbm, ⟨81, _⟩ => ⟨S64x1x512x512, .i1⟩
  | .hbm, ⟨82, _⟩ => ⟨S64x1x512x512, .i1⟩
  | .hbm, ⟨83, _⟩ => ⟨S64x1x512x512, .i1⟩
  | .hbm, ⟨84, _⟩ => ⟨S64x1x512x512, .i1⟩
  | .hbm, ⟨85, _⟩ => ⟨S64x1x512x512, .i1⟩
  | .hbm, ⟨86, _⟩ => ⟨S64x1x512x512, .i1⟩
  | .hbm, ⟨87, _⟩ => ⟨S64x1x512x512, .i1⟩
  | .hbm, ⟨88, _⟩ => ⟨S64x1x512x512, .i1⟩
  | .hbm, ⟨89, _⟩ => ⟨S_, .i1⟩
  | .hbm, ⟨90, _⟩ => ⟨S64x1x514x514, .i1⟩
  | .hbm, ⟨91, _⟩ => ⟨S64x1x512x512, .i1⟩
  | .hbm, ⟨92, _⟩ => ⟨S64x1x512x512, .i1⟩
  | .hbm, ⟨93, _⟩ => ⟨S64x1x512x512, .i1⟩
  | .hbm, ⟨94, _⟩ => ⟨S64x1x512x512, .i1⟩
  | .hbm, ⟨95, _⟩ => ⟨S64x1x512x512, .i1⟩
  | .hbm, ⟨96, _⟩ => ⟨S64x1x512x512, .i1⟩
  | .hbm, ⟨97, _⟩ => ⟨S64x1x512x512, .i1⟩
  | .hbm, ⟨98, _⟩ => ⟨S64x1x512x512, .i1⟩
  | .hbm, ⟨99, _⟩ => ⟨S64x1x512x512, .i1⟩
  | .hbm, ⟨100, _⟩ => ⟨S64x1x512x512, .i1⟩
  | .hbm, ⟨101, _⟩ => ⟨S64x1x512x512, .i1⟩
  | .hbm, ⟨102, _⟩ => ⟨S64x1x512x512, .f32⟩
  | .hbm, ⟨103, _⟩ => ⟨S_, .f32⟩
  | .hbm, ⟨104, _⟩ => ⟨S64x1x512x512, .f32⟩
  | .hbm, ⟨105, _⟩ => ⟨S64x1x512x512, .f32⟩
  | .hbm, ⟨106, _⟩ => ⟨S_, .f32⟩
  | .hbm, ⟨107, _⟩ => ⟨S64x1x512x512, .f32⟩
  | .hbm, ⟨108, _⟩ => ⟨S64x1x512x512, .f32⟩
  | .hbm, ⟨109, _⟩ => ⟨S64x1x512x512, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_cst_12 : Ref sig .tc := ⟨.hbm, 48, rfl⟩
abbrev main_v33 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev main_v37 : Ref sig .tc := ⟨.hbm, 55, rfl⟩
abbrev main_c : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_15 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_16 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_17 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_18 : Ref sig .tc := ⟨.hbm, 103, rfl⟩
abbrev main_v81 : Ref sig .tc := ⟨.hbm, 104, rfl⟩
abbrev main_v82 : Ref sig .tc := ⟨.hbm, 105, rfl⟩
abbrev main_cst_19 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_20 : Ref sig .tc := ⟨.hbm, 110, rfl⟩
abbrev main_v86 : Ref sig .tc := ⟨.hbm, 111, rfl⟩
abbrev main_cst_21 : Ref sig .tc := ⟨.hbm, 112, rfl⟩
abbrev main_v87 : Ref sig .tc := ⟨.hbm, 113, rfl⟩
abbrev main_cst_22 : Ref sig .tc := ⟨.hbm, 114, rfl⟩
abbrev main_v88 : Ref sig .tc := ⟨.hbm, 115, rfl⟩
abbrev main_cst_23 : Ref sig .tc := ⟨.hbm, 116, rfl⟩
abbrev main_v89 : Ref sig .tc := ⟨.hbm, 117, rfl⟩
abbrev main_v90 : Ref sig .tc := ⟨.hbm, 118, rfl⟩
abbrev main_cst_24 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel
  pads_S64x1x512x512_S64x1x514x514_000_000_110_110 : S64x1x512x512.Pads (![0, 0, 1, 1] : Fin 4 → Nat) ![0, 0, 1, 1] ![0, 0, 0, 0] S64x1x514x514
  slices_S64x1x514x514_S64x1x512x512_0_0_1_1 : S64x1x514x514.Slices ![0, 0, 1, 1] S64x1x512x512
  slices_S64x1x514x514_S64x1x512x512_0_0_0_1 : S64x1x514x514.Slices ![0, 0, 0, 1] S64x1x512x512
  slices_S64x1x514x514_S64x1x512x512_0_0_2_1 : S64x1x514x514.Slices ![0, 0, 2, 1] S64x1x512x512
  slices_S64x1x514x514_S64x1x512x512_0_0_1_0 : S64x1x514x514.Slices ![0, 0, 1, 0] S64x1x512x512
  slices_S64x1x514x514_S64x1x512x512_0_0_1_2 : S64x1x514x514.Slices ![0, 0, 1, 2] S64x1x512x512

variable [Facts₀]

class Facts : Prop extends Facts₀ where

variable [Facts]
-- ==== Proof.KPieces.lean ====
/-
  What one grid point leaves behind.

  The body of the kernel, at a grid point, loads the point's two blocks `x0` (logits) and `x1` (targets), each two
  images of 512 × 512, reduces them to five scalars — the focal sum `sF`, the intersection `sI`, the sum of the
  logistic values `sP`, the sum of the targets `sT` and the boundary-weighted cross-entropy `sB` — and adds each,
  spread over an 8 × 128 tile, to its own accumulator (`upd`).  At a core's first step the accumulators are first
  reset to the zero tile; at its last step the output tile is filled: zero everywhere, then row `r` (r = 0 … 4)
  overwritten by row 0 of accumulator `r`.  The lemmas below read this off the stores the body makes in each of its
  three control cases: the accumulator a case leaves is `upd` of the point's scalar over what it held (or over the zero
  tile), and entry (0, r, 0) of the output tile is entry (0, 0) of the updated accumulator `r`.
-/
import proofs.«148036_j65008624992506_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The five scalars one grid point adds to its accumulators, as the body computes them from the point's two blocks:
    the focal sum, the intersection, the sum of the logistic values, the sum of the targets, the weighted cross-entropy. -/
def one : F .f32 := FloatOps.ofBits .f32 0x3F800000#32
def sF (x0 x1 : Vec F S2x1x512x512 .f32) : FVec F S1x1 .f32 := k0_pay19 x0 x1
def sI (x0 x1 : Vec F S2x1x512x512 .f32) : FVec F S1x1 .f32 := k0_pay22 (k0_pay17 x1) (k0_pay20 x0) one
def sP (x0 : Vec F S2x1x512x512 .f32) : FVec F S1x1 .f32 := k0_pay23 (k0_pay20 x0) one
def sT (x1 : Vec F S2x1x512x512 .f32) : FVec F S1x1 .f32 := k0_pay24 (k0_pay17 x1)
def sB (x0 x1 : Vec F S2x1x512x512 .f32) : FVec F S1x1 .f32 :=
  k0_pay39 (k0_pay18 x0 x1)
    (k0_pay30 (k0_pay25 (k0_pay17 x1)) (k0_pay26 (k0_pay17 x1)) (k0_pay27 (k0_pay17 x1)) k0_pay28 k0_pay29)
    (k0_pay34 (k0_pay25 (k0_pay17 x1)) (k0_pay31 (k0_pay25 (k0_pay17 x1))) k0_pay32 k0_pay33)
    (k0_pay35 (k0_pay25 (k0_pay17 x1)) (k0_pay31 (k0_pay25 (k0_pay17 x1))) k0_pay32 k0_pay33)
    (k0_pay36 (k0_pay25 (k0_pay17 x1)) (k0_pay31 (k0_pay25 (k0_pay17 x1))) k0_pay32 k0_pay33) k0_pay37 k0_pay38

/-- An accumulator after a step: its old contents plus the step's scalar spread over the tile. -/
def upd (s : FVec F S1x1 .f32) (xs : Vec F S8x128 .f32) : FVec F S8x128 .f32 :=
  addf xs (broadcastTo S8x128 s broadcasts_S1x1_S8x128)

/-- The zero tile an accumulator is reset to. -/
abbrev zero : Vec F S8x128 .f32 := broadcast S8x128 (Scalar.ofBits .f32 0x00000000#32)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem sA_0 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S2x1x512x512 .f32) (x1 : Vec F S2x1x512x512 .f32)  :
    sout0_A_0 c i arg2 harg2 arg3 harg3 arg4 harg4 arg5 harg5 arg6 harg6 arg7 harg7 arg8 harg8 arg9 harg9 hc0 hc1 x0 x1  = upd (sF x0 x1) zero := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 )]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sF k0_pay40 k0_pay11
  simp only [shapeCast_self]

theorem sA_1 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S2x1x512x512 .f32) (x1 : Vec F S2x1x512x512 .f32)  :
    sout0_A_1 c i arg2 harg2 arg3 harg3 arg4 harg4 arg5 harg5 arg6 harg6 arg7 harg7 arg8 harg8 arg9 harg9 hc0 hc1 x0 x1  = upd (sI x0 x1) zero := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 )]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sI k0_pay41 k0_pay12
  simp only [shapeCast_self]
  rfl

theorem sA_2 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S2x1x512x512 .f32) (x1 : Vec F S2x1x512x512 .f32)  :
    sout0_A_2 c i arg2 harg2 arg3 harg3 arg4 harg4 arg5 harg5 arg6 harg6 arg7 harg7 arg8 harg8 arg9 harg9 hc0 hc1 x0 x1  = upd (sP x0) zero := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 )]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sP k0_pay1 k0_pay42 k0_pay13
  simp only [shapeCast_self]
  rfl

theorem sA_3 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S2x1x512x512 .f32) (x1 : Vec F S2x1x512x512 .f32)  :
    sout0_A_3 c i arg2 harg2 arg3 harg3 arg4 harg4 arg5 harg5 arg6 harg6 arg7 harg7 arg8 harg8 arg9 harg9 hc0 hc1 x0 x1  = upd (sT x1) zero := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 )]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sT k0_pay2 k0_pay14
  simp only [shapeCast_self]

theorem sA_4 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S2x1x512x512 .f32) (x1 : Vec F S2x1x512x512 .f32)  :
    sout0_A_4 c i arg2 harg2 arg3 harg3 arg4 harg4 arg5 harg5 arg6 harg6 arg7 harg7 arg8 harg8 arg9 harg9 hc0 hc1 x0 x1  = upd (sB x0 x1) zero := by
  unfold sout0_A_4
  rw [View.read_writes_eq_canon _ _ _ (scover0_A_4 c i arg2 harg2 arg3 harg3 arg4 harg4 arg5 harg5 arg6 harg6 arg7 harg7 arg8 harg8 arg9 harg9 hc0 hc1 x0 x1 )]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sB k0_pay3 k0_pay15
  simp only [shapeCast_self]

theorem sB_0 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S2x1x512x512 .f32) (x1 : Vec F S2x1x512x512 .f32) (xs0 xs1 xs2 xs3 xs4 : Vec F S8x128 .f32) :
    sout0_B_0 c i arg2 harg2 arg3 harg3 arg4 harg4 arg5 harg5 arg6 harg6 arg7 harg7 arg8 harg8 arg9 harg9 hc0 hc1 x0 x1 xs0 xs1 xs2 xs3 xs4 = upd (sF x0 x1) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sF k0_pay40
  simp only [shapeCast_self]

theorem sB_1 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S2x1x512x512 .f32) (x1 : Vec F S2x1x512x512 .f32) (xs0 xs1 xs2 xs3 xs4 : Vec F S8x128 .f32) :
    sout0_B_1 c i arg2 harg2 arg3 harg3 arg4 harg4 arg5 harg5 arg6 harg6 arg7 harg7 arg8 harg8 arg9 harg9 hc0 hc1 x0 x1 xs0 xs1 xs2 xs3 xs4 = upd (sI x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sI k0_pay41
  simp only [shapeCast_self]
  rfl

theorem sB_2 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S2x1x512x512 .f32) (x1 : Vec F S2x1x512x512 .f32) (xs0 xs1 xs2 xs3 xs4 : Vec F S8x128 .f32) :
    sout0_B_2 c i arg2 harg2 arg3 harg3 arg4 harg4 arg5 harg5 arg6 harg6 arg7 harg7 arg8 harg8 arg9 harg9 hc0 hc1 x0 x1 xs0 xs1 xs2 xs3 xs4 = upd (sP x0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sP k0_pay1 k0_pay42
  simp only [shapeCast_self]
  rfl

theorem sB_3 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S2x1x512x512 .f32) (x1 : Vec F S2x1x512x512 .f32) (xs0 xs1 xs2 xs3 xs4 : Vec F S8x128 .f32) :
    sout0_B_3 c i arg2 harg2 arg3 harg3 arg4 harg4 arg5 harg5 arg6 harg6 arg7 harg7 arg8 harg8 arg9 harg9 hc0 hc1 x0 x1 xs0 xs1 xs2 xs3 xs4 = upd (sT x1) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sT k0_pay2
  simp only [shapeCast_self]

theorem sB_4 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S2x1x512x512 .f32) (x1 : Vec F S2x1x512x512 .f32) (xs0 xs1 xs2 xs3 xs4 : Vec F S8x128 .f32) :
    sout0_B_4 c i arg2 harg2 arg3 harg3 arg4 harg4 arg5 harg5 arg6 harg6 arg7 harg7 arg8 harg8 arg9 harg9 hc0 hc1 x0 x1 xs0 xs1 xs2 xs3 xs4 = upd (sB x0 x1) xs4 := by
  unfold sout0_B_4
  rw [View.read_writes_eq_canon _ _ _ (scover0_B_4 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sB k0_pay3
  simp only [shapeCast_self]

theorem sC_0 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    sout0_C_0 c i arg2 harg2 arg3 harg3 arg4 harg4 arg5 harg5 arg6 harg6 arg7 harg7 arg8 harg8 arg9 harg9 hc0 hc1 x0 x1 xs0 xs1 xs2 xs3 xs4 = upd (sF x0 x1) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sF k0_pay40
  simp only [shapeCast_self]

theorem sC_1 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    sout0_C_1 c i arg2 harg2 arg3 harg3 arg4 harg4 arg5 harg5 arg6 harg6 arg7 harg7 arg8 harg8 arg9 harg9 hc0 hc1 x0 x1 xs0 xs1 xs2 xs3 xs4 = upd (sI x0 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sI k0_pay41
  simp only [shapeCast_self]
  rfl

theorem sC_2 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    sout0_C_2 c i arg2 harg2 arg3 harg3 arg4 harg4 arg5 harg5 arg6 harg6 arg7 harg7 arg8 harg8 arg9 harg9 hc0 hc1 x0 x1 xs0 xs1 xs2 xs3 xs4 = upd (sP x0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sP k0_pay1 k0_pay42
  simp only [shapeCast_self]
  rfl

theorem sC_3 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    sout0_C_3 c i arg2 harg2 arg3 harg3 arg4 harg4 arg5 harg5 arg6 harg6 arg7 harg7 arg8 harg8 arg9 harg9 hc0 hc1 x0 x1 xs0 xs1 xs2 xs3 xs4 = upd (sT x1) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sT k0_pay2
  simp only [shapeCast_self]

theorem sC_4 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    sout0_C_4 c i arg2 harg2 arg3 harg3 arg4 harg4 arg5 harg5 arg6 harg6 arg7 harg7 arg8 harg8 arg9 harg9 hc0 hc1 x0 x1 xs0 xs1 xs2 xs3 xs4 = upd (sB x0 x1) xs4 := by
  unfold sout0_C_4
  rw [View.read_writes_eq_canon _ _ _ (scover0_C_4 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  unfold upd sB k0_pay3
  simp only [shapeCast_self]

/-- A row [1,128] viewed as a vector and then as [1,1,128] reads lane `l` of the row. -/
theorem rowCast {α : Type} (v : S1x128.Idx → α) (l : Fin 128) :
    shapeCast S1x1x128 (shapeCast S128 v shapeCasts_S1x128_S128) shapeCasts_S128_S1x1x128 (ValueIdx.ix3 0 0 l)
      = v (ValueIdx.ix2 0 l) := by
  rw [shapeCast_apply _ shapeCasts_S128_S1x1x128 (ValueIdx.ix3 0 0 l) (ValueIdx.ix1 l) (by
        rw [Shape.rowMajor_val_one, Shape.rowMajor_val_three]
        show l.val = ((0 : ℕ) * 1 + 0) * 128 + l.val
        omega)]
  exact ValueIdx.shapeCast_1a_a_apply v shapeCasts_S1x128_S128 l

theorem outC_4 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    out0_C_2 c i arg2 harg2 arg3 harg3 arg4 harg4 arg5 harg5 arg6 harg6 arg7 harg7 arg8 harg8 arg9 harg9 hc0 hc1 x0 x1 xs0 xs1 xs2 xs3 xs4 (ValueIdx.ix3 0 4 0) = upd (sB x0 x1) xs4 (ValueIdx.ix2 0 0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]

  have e : (ValueIdx.ix3 0 4 0 : S1x8x128.Idx)
      = (Rect.unit ![0, 4, 0] ![1, 1, 128] inb_S1x8x128_S1x1x128_0_4_0).emb (ValueIdx.ix3 0 0 0) := by
    funext a; apply Fin.ext; fin_cases a <;> rfl
  have e2 : (Rect.unit ![0, 0] ![1, 128] inb_S8x128_S1x128_0_0).idx (ValueIdx.ix2 0 0) = (ValueIdx.ix2 0 0 : S8x128.Idx) := by
    funext a; apply Fin.ext; fin_cases a <;> rfl
  rw [e, View.canon_cons_emb]
  unfold k0_pay4 k0_pay10
  rw [rowCast, View.readCov_eq_canon', View.canon_unit_zero hz2]
  unfold upd sB k0_pay3
  simp only [shapeCast_self]
  exact congrArg _ e2

theorem outC_3 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    out0_C_2 c i arg2 harg2 arg3 harg3 arg4 harg4 arg5 harg5 arg6 harg6 arg7 harg7 arg8 harg8 arg9 harg9 hc0 hc1 x0 x1 xs0 xs1 xs2 xs3 xs4 (ValueIdx.ix3 0 3 0) = upd (sT x1) xs3 (ValueIdx.ix2 0 0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  rw [View.canon_cons_of_not_mem]
  swap
  · intro h
    have h1 := (Rect.mem_set_unit (s := S1x8x128) (off := ![0, 4, 0]) (size := ![1, 1, 128]) (inb := inb_S1x8x128_S1x1x128_0_4_0)
      (i := ValueIdx.ix3 0 3 0)).mp h (1 : Fin 3)
    revert h1
    decide
  have e : (ValueIdx.ix3 0 3 0 : S1x8x128.Idx)
      = (Rect.unit ![0, 3, 0] ![1, 1, 128] inb_S1x8x128_S1x1x128_0_3_0).emb (ValueIdx.ix3 0 0 0) := by
    funext a; apply Fin.ext; fin_cases a <;> rfl
  have e2 : (Rect.unit ![0, 0] ![1, 128] inb_S8x128_S1x128_0_0).idx (ValueIdx.ix2 0 0) = (ValueIdx.ix2 0 0 : S8x128.Idx) := by
    funext a; apply Fin.ext; fin_cases a <;> rfl
  rw [e, View.canon_cons_emb]
  unfold k0_pay9
  rw [rowCast, View.readCov_eq_canon', View.canon_unit_zero hz2]
  unfold upd sT k0_pay2
  simp only [shapeCast_self]
  exact congrArg _ e2

theorem outC_2 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    out0_C_2 c i arg2 harg2 arg3 harg3 arg4 harg4 arg5 harg5 arg6 harg6 arg7 harg7 arg8 harg8 arg9 harg9 hc0 hc1 x0 x1 xs0 xs1 xs2 xs3 xs4 (ValueIdx.ix3 0 2 0) = upd (sP x0) xs2 (ValueIdx.ix2 0 0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  rw [View.canon_cons_of_not_mem]
  swap
  · intro h
    have h1 := (Rect.mem_set_unit (s := S1x8x128) (off := ![0, 4, 0]) (size := ![1, 1, 128]) (inb := inb_S1x8x128_S1x1x128_0_4_0)
      (i := ValueIdx.ix3 0 2 0)).mp h (1 : Fin 3)
    revert h1
    decide
  rw [View.canon_cons_of_not_mem]
  swap
  · intro h
    have h1 := (Rect.mem_set_unit (s := S1x8x128) (off := ![0, 3, 0]) (size := ![1, 1, 128]) (inb := inb_S1x8x128_S1x1x128_0_3_0)
      (i := ValueIdx.ix3 0 2 0)).mp h (1 : Fin 3)
    revert h1
    decide
  have e : (ValueIdx.ix3 0 2 0 : S1x8x128.Idx)
      = (Rect.unit ![0, 2, 0] ![1, 1, 128] inb_S1x8x128_S1x1x128_0_2_0).emb (ValueIdx.ix3 0 0 0) := by
    funext a; apply Fin.ext; fin_cases a <;> rfl
  have e2 : (Rect.unit ![0, 0] ![1, 128] inb_S8x128_S1x128_0_0).idx (ValueIdx.ix2 0 0) = (ValueIdx.ix2 0 0 : S8x128.Idx) := by
    funext a; apply Fin.ext; fin_cases a <;> rfl
  rw [e, View.canon_cons_emb]
  unfold k0_pay8
  rw [rowCast, View.readCov_eq_canon', View.canon_unit_zero hz2]
  unfold upd sP k0_pay1 k0_pay42
  simp only [shapeCast_self]
  exact congrArg _ e2

theorem outC_1 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    out0_C_2 c i arg2 harg2 arg3 harg3 arg4 harg4 arg5 harg5 arg6 harg6 arg7 harg7 arg8 harg8 arg9 harg9 hc0 hc1 x0 x1 xs0 xs1 xs2 xs3 xs4 (ValueIdx.ix3 0 1 0) = upd (sI x0 x1) xs1 (ValueIdx.ix2 0 0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  rw [View.canon_cons_of_not_mem]
  swap
  · intro h
    have h1 := (Rect.mem_set_unit (s := S1x8x128) (off := ![0, 4, 0]) (size := ![1, 1, 128]) (inb := inb_S1x8x128_S1x1x128_0_4_0)
      (i := ValueIdx.ix3 0 1 0)).mp h (1 : Fin 3)
    revert h1
    decide
  rw [View.canon_cons_of_not_mem]
  swap
  · intro h
    have h1 := (Rect.mem_set_unit (s := S1x8x128) (off := ![0, 3, 0]) (size := ![1, 1, 128]) (inb := inb_S1x8x128_S1x1x128_0_3_0)
      (i := ValueIdx.ix3 0 1 0)).mp h (1 : Fin 3)
    revert h1
    decide
  rw [View.canon_cons_of_not_mem]
  swap
  · intro h
    have h1 := (Rect.mem_set_unit (s := S1x8x128) (off := ![0, 2, 0]) (size := ![1, 1, 128]) (inb := inb_S1x8x128_S1x1x128_0_2_0)
      (i := ValueIdx.ix3 0 1 0)).mp h (1 : Fin 3)
    revert h1
    decide
  have e : (ValueIdx.ix3 0 1 0 : S1x8x128.Idx)
      = (Rect.unit ![0, 1, 0] ![1, 1, 128] inb_S1x8x128_S1x1x128_0_1_0).emb (ValueIdx.ix3 0 0 0) := by
    funext a; apply Fin.ext; fin_cases a <;> rfl
  have e2 : (Rect.unit ![0, 0] ![1, 128] inb_S8x128_S1x128_0_0).idx (ValueIdx.ix2 0 0) = (ValueIdx.ix2 0 0 : S8x128.Idx) := by
    funext a; apply Fin.ext; fin_cases a <;> rfl
  rw [e, View.canon_cons_emb]
  unfold k0_pay7
  rw [rowCast, View.readCov_eq_canon', View.canon_unit_zero hz2]
  unfold upd sI k0_pay41
  simp only [shapeCast_self]
  exact congrArg _ e2

theorem outC_0 (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S1x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S2x1x512x512 .f32) (x1 : Vec F S2x1x512x512 .f32) (xs0 xs1 xs2 xs3 xs4 : Vec F S8x128 .f32) :
    out0_C_2 c i arg2 harg2 arg3 harg3 arg4 harg4 arg5 harg5 arg6 harg6 arg7 harg7 arg8 harg8 arg9 harg9 hc0 hc1 x0 x1 xs0 xs1 xs2 xs3 xs4 (ValueIdx.ix3 0 0 0) = upd (sF x0 x1) xs0 (ValueIdx.ix2 0 0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S8x128) hz2, View.ld_unit_zero (S := S2x1x512x512) hz4]
  rw [View.canon_cons_of_not_mem]
  swap
  · intro h
    have h1 := (Rect.mem_set_unit (s := S1x8x128) (off := ![0, 4, 0]) (size := ![1, 1, 128]) (inb := inb_S1x8x128_S1x1x128_0_4_0)
      (i := ValueIdx.ix3 0 0 0)).mp h (1 : Fin 3)
    revert h1
    decide
  rw [View.canon_cons_of_not_mem]
  swap
  · intro h
    have h1 := (Rect.mem_set_unit (s := S1x8x128) (off := ![0, 3, 0]) (size := ![1, 1, 128]) (inb := inb_S1x8x128_S1x1x128_0_3_0)
      (i := ValueIdx.ix3 0 0 0)).mp h (1 : Fin 3)
    revert h1
    decide
  rw [View.canon_cons_of_not_mem]
  swap
  · intro h
    have h1 := (Rect.mem_set_unit (s := S1x8x128) (off := ![0, 2, 0]) (size := ![1, 1, 128]) (inb := inb_S1x8x128_S1x1x128_0_2_0)
      (i := ValueIdx.ix3 0 0 0)).mp h (1 : Fin 3)
    revert h1
    decide
  rw [View.canon_cons_of_not_mem]
  swap
  · intro h
    have h1 := (Rect.mem_set_unit (s := S1x8x128) (off := ![0, 1, 0]) (size := ![1, 1, 128]) (inb := inb_S1x8x128_S1x1x128_0_1_0)
      (i := ValueIdx.ix3 0 0 0)).mp h (1 : Fin 3)
    revert h1
    decide
  have e : (ValueIdx.ix3 0 0 0 : S1x8x128.Idx)
      = (Rect.unit ![0, 0, 0] ![1, 1, 128] inb_S1x8x128_S1x1x128_0_0_0).emb (ValueIdx.ix3 0 0 0) := by
    funext a; apply Fin.ext; fin_cases a <;> rfl
  have e2 : (Rect.unit ![0, 0] ![1, 128] inb_S8x128_S1x128_0_0).idx (ValueIdx.ix2 0 0) = (ValueIdx.ix2 0 0 : S8x128.Idx) := by
    funext a; apply Fin.ext; fin_cases a <;> rfl
  rw [e, View.canon_cons_emb]
  unfold k0_pay6
  rw [rowCast, View.readCov_eq_canon', View.canon_unit_zero hz2]
  unfold upd sF k0_pay40
  simp only [shapeCast_self]
  exact congrArg _ e2

end Cert.KernelIdeal.Pieces

end
-- ==== Proof.KAccum.lean ====
/-
  The accumulators after each grid point.

  The thirty-two grid points are walked in order; the sixteen points of a core form one run.  The frame run records what
  each case of the body leaves in the five carried accumulators; chaining these through the points gives a plain
  recursion: after a run's first point each accumulator is the zero tile stepped once, after any later point it is the
  previous contents stepped by the point's blocks.
-/
import proofs.«148036_j65008624992506_2_alg».proof.Proof.KPieces

set_option maxRecDepth 16384

noncomputable section

namespace Cert.KernelIdeal.Accum

open Idealize.ShloMosaic Idealize.ShloMosaic.TcCoe
open Idealize.SL Idealize.SL.Sem
open Cert.KernelIdeal Cert.KernelIdeal.Gen Cert.KernelIdeal.Pieces

variable {F : FTy → Type} [FloatOps F]
variable (m : (ℓ : Loc nD τ sig) → Buf (Elt F) ℓ)

/-- One grid point's effect on the five accumulators: each gains the point's scalar for it. -/
def step5 (x0 x1 : Vec F S2x1x512x512 .f32) (a : Vec F S8x128 .f32 × Vec F S8x128 .f32 × Vec F S8x128 .f32 × Vec F S8x128 .f32 × Vec F S8x128 .f32) : Vec F S8x128 .f32 × Vec F S8x128 .f32 × Vec F S8x128 .f32 × Vec F S8x128 .f32 × Vec F S8x128 .f32 :=
  (upd (sF x0 x1) a.1, upd (sI x0 x1) a.2.1, upd (sP x0) a.2.2.1, upd (sT x1) a.2.2.2.1, upd (sB x0 x1) a.2.2.2.2)

/-- The five accumulators reset. -/
def zero5 : Vec F S8x128 .f32 × Vec F S8x128 .f32 × Vec F S8x128 .f32 × Vec F S8x128 .f32 × Vec F S8x128 .f32 := (zero, zero, zero, zero, zero)

/-- The five accumulators after point `n`: reset before every sixteenth point, then stepped by the point's blocks. -/
def accs (c : Dev nD) : (n : ℕ) → n < cfg0.N → Vec F S8x128 .f32 × Vec F S8x128 .f32 × Vec F S8x128 .f32 × Vec F S8x128 .f32 × Vec F S8x128 .f32
  | 0, h => step5 (iblk m c 0 ⟨0, h⟩) (iblk m c 1 ⟨0, h⟩) zero5
  | n + 1, h =>
    if (n + 1) % 16 = 0 then step5 (iblk m c 0 ⟨n + 1, h⟩) (iblk m c 1 ⟨n + 1, h⟩) zero5
    else step5 (iblk m c 0 ⟨n + 1, h⟩) (iblk m c 1 ⟨n + 1, h⟩) (accs c n (Nat.lt_of_succ_lt h))

/-- What the frame run found in the carried accumulators after each point is that recursion. -/
theorem outsAt_accs (c : Dev nD) : ∀ (n : ℕ) (h : n < cfg0.N), (outsAt0 m c n h).2 = accs m c n h
  | 0, h => by
    rw [outsAt0_A m c ⟨0, h⟩ rfl (by show ¬ (0 % 16 = 15); decide)]
    dsimp only
    rw [sA_0, sA_1, sA_2, sA_3, sA_4]
    rfl
  | n + 1, h => by
    have hN : cfg0.N = 32 := N_0
    by_cases h0 : (n + 1) % 16 = 0
    · rw [outsAt0_A m c ⟨n + 1, h⟩ h0 (by dsimp only; omega)]
      dsimp only
      rw [sA_0, sA_1, sA_2, sA_3, sA_4, accs, if_pos h0]
      rfl
    · by_cases h1 : (n + 1) % 16 = 15
      · rw [outsAt0_C m c ⟨n + 1, h⟩ h0 h1]
        dsimp only
        rw [sC_0, sC_1, sC_2, sC_3, sC_4, accs, if_neg h0]
        show step5 _ _ (outsAt0 m c n _).2 = step5 _ _ (accs m c n _)
        rw [outsAt_accs c n]
      · rw [outsAt0_B m c ⟨n + 1, h⟩ h0 h1]
        dsimp only
        rw [sB_0, sB_1, sB_2, sB_3, sB_4, accs, if_neg h0]
        show step5 _ _ (outsAt0 m c n _).2 = step5 _ _ (accs m c n _)
        rw [outsAt_accs c n]

end Cert.KernelIdeal.Accum

end
-- ==== Proof.Spec.lean ====
/-
  The loss both programs compute, written once over coordinates.

  For an image batch `X` (logits) and `T` (targets), indexed by image `n : Fin 64`, row `h` and column `w`, the loss is
  `tail sF sI sP sT sB` of five sums over all entries:
    sF = Σ focal (X, T)            the focal term  ¼ · (1 − e^(−bce))² · bce
    sI = Σ sig X · T               the intersection of the dice ratio
    sP = Σ sig X ,  sT = Σ T
    sB = Σ bce (X, T) · wgt b      the cross-entropy weighted 6 on the boundary band and 1 elsewhere,
  where `bce x t = max x 0 − x t + log (1 + e^(−|x|))`, `sig x = 1 / (1 + e^(−x))`, and `b` says whether the entry lies
  in the band: in the twice-dilated mask `T > ½` but not in the twice-eroded one (the cross-shaped neighbourhood, entries
  outside the image counting as unset).  Constants are kept as the float words both programs print.
-/
import Idealize.ShloMosaic.PureOps.Ideal
import Idealize.ShloMosaic.Lib.ValueIdx

noncomputable section

namespace Cert.Loss

open Idealize.ShloMosaic Idealize.ShloMosaic.ValueIdx

/-- An extended real: what a float is read as. -/
abbrev R := Ideal FTy.f32

def c0 : R := Ideal.ofBits .f32 0x00000000#32
def c1 : R := Ideal.ofBits .f32 0x3F800000#32
def c2 : R := Ideal.ofBits .f32 0x40000000#32
def cQ : R := Ideal.ofBits .f32 0x3E800000#32
def cH : R := Ideal.ofBits .f32 0x3F000000#32
def c5 : R := Ideal.ofBits .f32 0x40A00000#32
def cN : R := Ideal.ofBits .f32 0x4B800000#32
def cEps : R := Ideal.ofBits .f32 0x358637BD#32
def c03 : R := Ideal.ofBits .f32 0x3E99999A#32
def c04 : R := Ideal.ofBits .f32 0x3ECCCCCD#32

/-- The numerically stable cross-entropy with logits of one entry. -/
def bce (x t : R) : R := (max x c0 - x * t) + Ideal.log1p (Ideal.exp (-(FloatOps.absf x)))

/-- The focal term of one entry, the square written as a power with exponent two. -/
def focal (x t : R) : R := (cQ * Ideal.pow (c1 - Ideal.exp (-(bce x t))) c2) * bce x t

/-- The logistic function as the quotient it is computed by. -/
def sig (x : R) : R := Ideal.div c1 (c1 + Ideal.exp (-x))

/-- A truth value as the number one or zero. -/
def ind (b : Bool) : R := if b then 1 else 0

/-- The boundary weight: six inside the band, one outside. -/
def wgt (b : Bool) : R := ind b * c5 + c1

/-- One erosion by the cross: an entry stays set when it and its four neighbours are set, a neighbour outside the
    512 × 512 image counting as unset. -/
def erode (g : ℕ → ℕ → Bool) (h w : ℕ) : Bool :=
  ((((g h w && (decide (0 < h) && g (h - 1) w)) && (decide (h < 511) && g (h + 1) w))
    && (decide (0 < w) && g h (w - 1))) && (decide (w < 511) && g h (w + 1)))

/-- One dilation by the cross: an entry is set when it or one of its four neighbours inside the image is set. -/
def dilate (g : ℕ → ℕ → Bool) (h w : ℕ) : Bool :=
  ((((g h w || (decide (0 < h) && g (h - 1) w)) || (decide (h < 511) && g (h + 1) w))
    || (decide (0 < w) && g h (w - 1))) || (decide (w < 511) && g h (w + 1)))

/-- The band between the twice-dilated and the twice-eroded mask. -/
def band (g : ℕ → ℕ → Bool) (h w : ℕ) : Bool :=
  dilate (dilate g) h w && !(erode (erode g) h w)

/-- The mask of one image: the target exceeds one half (unset outside the image). -/
def mask (T : Fin 512 → Fin 512 → R) (h w : ℕ) : Bool :=
  if hh : h < 512 ∧ w < 512 then decide (cH < T ⟨h, hh.1⟩ ⟨w, hh.2⟩) else false

/-- The scalar combination both programs end with. -/
def tail (sF sI sP sT sB : R) : R :=
  (c03 * Ideal.div sF cN + c04 * (c1 - Ideal.div (c2 * sI + cEps) ((sP + sT) + cEps))) + c03 * Ideal.div sB cN

/-- The five per-entry summands, at image `n`, row `h`, column `w`. -/
def tF (X T : Fin 64 → Fin 512 → Fin 512 → R) (n : Fin 64) (h w : Fin 512) : R := focal (X n h w) (T n h w)
def tI (X T : Fin 64 → Fin 512 → Fin 512 → R) (n : Fin 64) (h w : Fin 512) : R := sig (X n h w) * T n h w
def tP (X : Fin 64 → Fin 512 → Fin 512 → R) (n : Fin 64) (h w : Fin 512) : R := sig (X n h w)
def tB (X T : Fin 64 → Fin 512 → Fin 512 → R) (n : Fin 64) (h w : Fin 512) : R :=
  bce (X n h w) (T n h w) * wgt (band (mask (T n)) h.val w.val)

/-- The sum of a summand over the whole batch. -/
def total (f : Fin 64 → Fin 512 → Fin 512 → R) : R := ∑ n, ∑ h, ∑ w, f n h w

/-- The loss. -/
def loss (X T : Fin 64 → Fin 512 → Fin 512 → R) : R :=
  tail (total (tF X T)) (total (tI X T)) (total (tP X)) (total T) (total (tB X T))

/-- A four-axis index is its four coordinates, so a sum over it is the iterated sum over them. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The whole-array sum of a batch laid out [64, 1, 512, 512] is the total over coordinates. -/
theorem sum_batch (f : (⟨4, ![64, 1, 512, 512]⟩ : Shape).Idx → R) :
    ∑ i, f i = total (fun n h w => f (ix4 n 0 h w)) := by
  rw [sum_idx4]
  unfold total
  refine Finset.sum_congr rfl fun n _ => ?_
  rw [Fin.sum_univ_one]

end Cert.Loss

end
-- ==== Proof.SumBridge.lean ====
/-
  Regrouping the whole-batch sums the way the kernel accumulates them.

  The batch of 64 images is cut in 32 blocks of two images; block `t` holds images `2t` and `2t + 1`.  Each of two
  cores walks 16 consecutive blocks (core `c` the blocks `16c … 16c + 15`), adding each block's sum to a running value
  that starts from zero at the core's first block.  Over the extended reals addition is commutative and associative, so
  the two running values after the last step add up to the sum over the whole batch, whatever the order inside a block.
-/
import proofs.«148036_j65008624992506_2_alg».proof.Proof.Spec

noncomputable section

namespace Cert.Loss

open Idealize.ShloMosaic

/-- Image `b` of block `t`: image `2t + b`. -/
def img (t : Fin 32) (b : Fin 2) : Fin 64 := finProdFinEquiv (t, b)

theorem img_val (t : Fin 32) (b : Fin 2) : (img t b).val = b.val + 2 * t.val := rfl

/-- Step `s` of core `c`: block `16c + s`. -/
def pt (c : Fin 2) (s : Fin 16) : Fin 32 := finProdFinEquiv (c, s)

theorem pt_val (c : Fin 2) (s : Fin 16) : (pt c s).val = s.val + 16 * c.val := rfl

/-- The sum of a summand over block `t`, in the order columns, rows, images. -/
def blockSum (f : Fin 64 → Fin 512 → Fin 512 → R) (t : Fin 32) : R := ∑ w, ∑ h, ∑ b, f (img t b) h w

/-- The blocks' sums add up to the total. -/
theorem sum_blockSum (f : Fin 64 → Fin 512 → Fin 512 → R) : ∑ t, blockSum f t = total f := by
  unfold blockSum total
  have e : ∀ t : Fin 32, (∑ w : Fin 512, ∑ h : Fin 512, ∑ b : Fin 2, f (img t b) h w)
      = ∑ b : Fin 2, ∑ h : Fin 512, ∑ w : Fin 512, f (img t b) h w := by
    intro t
    rw [Finset.sum_comm]
    refine (Finset.sum_congr rfl fun h _ => Finset.sum_comm).trans ?_
    rw [Finset.sum_comm]
  rw [Finset.sum_congr rfl fun t _ => e t]
  rw [← Fintype.sum_prod_type' (f := fun (t : Fin 32) (b : Fin 2) => ∑ h : Fin 512, ∑ w : Fin 512, f (img t b) h w)]
  exact (Equiv.sum_comp (finProdFinEquiv : Fin 32 × Fin 2 ≃ Fin 64) (fun n : Fin 64 => ∑ h : Fin 512, ∑ w : Fin 512, f n h w))

/-- The two cores' sixteen steps enumerate the thirty-two blocks. -/
theorem sum_pt (B : Fin 32 → R) : ∑ c : Fin 2, ∑ s : Fin 16, B (pt c s) = ∑ t, B t := by
  rw [← Fintype.sum_prod_type' (f := fun (c : Fin 2) (s : Fin 16) => B (pt c s))]
  exact (Equiv.sum_comp (finProdFinEquiv : Fin 2 × Fin 16 ≃ Fin 32) B)

/-- The running value after point `n` of the walk: restarted from zero at every sixteenth point. -/
def acc (B : ℕ → R) : ℕ → R
  | 0 => 0 + B 0
  | n + 1 => if (n + 1) % 16 = 0 then 0 + B (n + 1) else acc B n + B (n + 1)

theorem acc_eq (B : ℕ → R) (c : ℕ) : ∀ s : ℕ, s < 16 → acc B (16 * c + s) = ∑ j ∈ Finset.range (s + 1), B (16 * c + j)
  | 0, _ => by
    rw [Finset.sum_range_one, Nat.add_zero]
    cases c with
    | zero => exact zero_add _
    | succ c =>
      show acc B (16 * c + 15 + 1) = _
      rw [acc, if_pos (by omega), zero_add]
      exact congrArg B (by omega)
  | s + 1, hs => by
    show acc B (16 * c + s + 1) = _
    rw [acc, if_neg (by omega), acc_eq B c s (by omega), Finset.sum_range_succ (n := s + 1)]
    rfl

/-- After a core's last step its running value is the sum of its sixteen blocks. -/
theorem acc_last (B : ℕ → R) (c : ℕ) : acc B (16 * c + 15) = ∑ s : Fin 16, B (16 * c + s.val) := by
  rw [acc_eq B c 15 (by omega), Fin.sum_univ_eq_sum_range (fun j => B (16 * c + j)) 16]

/-- A block sum continued by zero beyond the thirty-two blocks. -/
def blockSumN (f : Fin 64 → Fin 512 → Fin 512 → R) (n : ℕ) : R := if h : n < 32 then blockSum f ⟨n, h⟩ else 0

/-- The two cores' final running values add up to the total. -/
theorem sum_acc_last (f : Fin 64 → Fin 512 → Fin 512 → R) :
    ∑ c : Fin 2, acc (blockSumN f) (16 * c.val + 15) = total f := by
  rw [← sum_blockSum f, ← sum_pt]
  refine Finset.sum_congr rfl fun c _ => ?_
  rw [acc_last]
  refine Finset.sum_congr rfl fun s _ => ?_
  have hlt : 16 * c.val + s.val < 32 := by have := c.isLt; have := s.isLt; omega
  unfold blockSumN
  rw [dif_pos hlt]
  congr 1
  apply Fin.ext
  show 16 * c.val + s.val = (pt c s).val
  rw [pt_val]; omega

end Cert.Loss

end
-- ==== Proof.KRun.lean ====
/-
  The accumulators over the extended reals.

  Read at the exact instance, a step adds the point's scalar to every entry of an accumulator tile, and the zero tile is
  zero; so every entry of an accumulator after point `n` is the running sum of that accumulator's scalars since the start
  of the point's run of sixteen.
-/
import proofs.«148036_j65008624992506_2_alg».proof.Proof.KAccum
import proofs.«148036_j65008624992506_2_alg».proof.Proof.SumBridge
import Idealize.ShloMosaic.Lib.ValueIdx
import Idealize.ShloMosaic.Lib.Pipeline.Value
import Idealize.ShloMosaic.PureOps.Ideal.Laws

set_option maxRecDepth 16384

noncomputable section

namespace Cert.KernelIdeal.KRun

open Idealize.ShloMosaic Idealize.ShloMosaic.TcCoe Idealize.ShloMosaic.ValueIdx
open Idealize.SL Idealize.SL.Sem
open Cert.KernelIdeal Cert.KernelIdeal.Gen Cert.KernelIdeal.Pieces Cert.KernelIdeal.Accum

variable (m : (ℓ : Loc nD τ sig) → Buf (Elt Ideal) ℓ)

/-- Over the extended reals an accumulator tile after a step is, entry by entry, its old entry plus the step's scalar. -/
theorem upd_apply (s : FVec Ideal S1x1 .f32) (xs : Vec Ideal S8x128 .f32) (y : S8x128.Idx) :
    upd s xs y = xs y + s (ix2 0 0) := by
  unfold upd
  rw [addf_apply]
  congr 1
  exact broadcastTo_apply s broadcasts_S1x1_S8x128 y (ix2 0 0) (fun a => by fin_cases a <;> rfl)

/-- The zero tile is zero. -/
theorem zero_apply (y : S8x128.Idx) : (zero : Vec Ideal S8x128 .f32) y = 0 := Ideal.ofBits_zero_f32

/-- The five scalars of grid point `n` (zero beyond the grid). -/
def scF (c : Dev nD) (n : ℕ) : EReal := if h : n < cfg0.N then sF (iblk m c 0 ⟨n, h⟩) (iblk m c 1 ⟨n, h⟩) (ix2 0 0) else 0
def scI (c : Dev nD) (n : ℕ) : EReal := if h : n < cfg0.N then sI (iblk m c 0 ⟨n, h⟩) (iblk m c 1 ⟨n, h⟩) (ix2 0 0) else 0
def scP (c : Dev nD) (n : ℕ) : EReal := if h : n < cfg0.N then sP (iblk m c 0 ⟨n, h⟩) (ix2 0 0) else 0
def scT (c : Dev nD) (n : ℕ) : EReal := if h : n < cfg0.N then sT (iblk m c 1 ⟨n, h⟩) (ix2 0 0) else 0
def scB (c : Dev nD) (n : ℕ) : EReal := if h : n < cfg0.N then sB (iblk m c 0 ⟨n, h⟩) (iblk m c 1 ⟨n, h⟩) (ix2 0 0) else 0

/-- Every entry of each accumulator after point `n` is the running sum of that accumulator's scalars over the run. -/
theorem accs_apply (c : Dev nD) : ∀ (n : ℕ) (h : n < cfg0.N) (y : S8x128.Idx),
    (accs m c n h).1 y = Cert.Loss.acc (scF m c) n ∧ (accs m c n h).2.1 y = Cert.Loss.acc (scI m c) n
    ∧ (accs m c n h).2.2.1 y = Cert.Loss.acc (scP m c) n ∧ (accs m c n h).2.2.2.1 y = Cert.Loss.acc (scT m c) n
    ∧ (accs m c n h).2.2.2.2 y = Cert.Loss.acc (scB m c) n
  | 0, h, y => by
    refine ⟨?_, ?_, ?_, ?_, ?_⟩ <;>
      (simp only [accs, step5, zero5, upd_apply, Cert.Loss.acc, scF, scI, scP, scT, scB, dif_pos h]
       exact congrArg (· + _) (zero_apply y))
  | n + 1, h, y => by
    obtain ⟨e0, e1, e2, e3, e4⟩ := accs_apply c n (Nat.lt_of_succ_lt h) y
    by_cases h0 : (n + 1) % 16 = 0
    · refine ⟨?_, ?_, ?_, ?_, ?_⟩ <;>
        (simp only [accs, if_pos h0, step5, zero5, upd_apply, Cert.Loss.acc, scF, scI, scP, scT, scB, dif_pos h]
         exact congrArg (· + _) (zero_apply y))
    · refine ⟨?_, ?_, ?_, ?_, ?_⟩ <;>
        simp only [accs, if_neg h0, step5, upd_apply, Cert.Loss.acc, e0, e1, e2, e3, e4, scF, scI, scP, scT, scB, dif_pos h]

end Cert.KernelIdeal.KRun

end
-- ==== Proof.KTail.lean ====
/-
  The host operations that follow the kernel's call, as one pure function of the call's [2,8,128] result, and their
  value on the extended reals.

  The operations cut the [2,5,1] corner out of the result, drop its unit axis, add the two rows (one per core) into
  five partial sums, and combine the five sums by the same scalar arithmetic as the loss's tail.
-/
import proofs.«148036_j65008624992506_2_alg».proof.KernelIdeal
import proofs.«148036_j65008624992506_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KTail

open Cert.KernelIdeal Idealize.ShloMosaic Idealize.ShloMosaic.ValueIdx

variable [Cert.KernelIdeal.Facts]
open Cert.KernelIdeal.Facts₀ Cert.KernelIdeal.Facts

/-- The five sums over the two rows: the corner slice, the reshape and the sum over axis 0. -/
def ksum {F : FTy → Type} [FloatOps F] (O : FVec F S2x8x128 .f32) : FVec F S5 .f32 :=
  let v1 : FVec F S2x5x1 .f32 := extractStridedSlice S2x5x1 ![0, 0, 0] O slices_S2x8x128_S2x5x1_0_0_0
  let v2 : FVec F S2x5 .f32 := shapeCast S2x5 v1 shapeCasts_S2x5x1_S2x5
  let cst : FVec F S_ .f32 := constant (F := F) S_ .f32 0x00000000#32
  Host.reduceAdd (F := F) v2 cst reducesTo_S2x5_S5_d0 h_S_

/-- The scalar arithmetic on the five sums. -/
def kscal {F : FTy → Type} [FloatOps F] (v3 : FVec F S5 .f32) : FVec F S_ .f32 :=
  let v4 : FVec F S1 .f32 := extractStridedSlice S1 ![0] v3 slices_S5_S1_0
  let v5 : FVec F S_ .f32 := shapeCast S_ v4 shapeCasts_S1_S_
  let v6 : FVec F S1 .f32 := extractStridedSlice S1 ![1] v3 slices_S5_S1_1
  let v7 : FVec F S_ .f32 := shapeCast S_ v6 shapeCasts_S1_S_
  let v8 : FVec F S1 .f32 := extractStridedSlice S1 ![2] v3 slices_S5_S1_2
  let v9 : FVec F S_ .f32 := shapeCast S_ v8 shapeCasts_S1_S_
  let v10 : FVec F S1 .f32 := extractStridedSlice S1 ![3] v3 slices_S5_S1_3
  let v11 : FVec F S_ .f32 := shapeCast S_ v10 shapeCasts_S1_S_
  let v12 : FVec F S1 .f32 := extractStridedSlice S1 ![4] v3 slices_S5_S1_4
  let v13 : FVec F S_ .f32 := shapeCast S_ v12 shapeCasts_S1_S_
  let cst_0 : FVec F S_ .f32 := constant (F := F) S_ .f32 0x4B800000#32
  let v14 : FVec F S_ .f32 := Host.divf (F := F) v5 cst_0
  let cst_1 : FVec F S_ .f32 := constant (F := F) S_ .f32 0x40000000#32
  let v15 : FVec F S_ .f32 := mulf cst_1 v7
  let cst_2 : FVec F S_ .f32 := constant (F := F) S_ .f32 0x358637BD#32
  let v16 : FVec F S_ .f32 := addf v15 cst_2
  let v17 : FVec F S_ .f32 := addf v9 v11
  let cst_3 : FVec F S_ .f32 := constant (F := F) S_ .f32 0x358637BD#32
  let v18 : FVec F S_ .f32 := addf v17 cst_3
  let v19 : FVec F S_ .f32 := Host.divf (F := F) v16 v18
  let cst_4 : FVec F S_ .f32 := constant (F := F) S_ .f32 0x3F800000#32
  let v20 : FVec F S_ .f32 := subf cst_4 v19
  let cst_5 : FVec F S_ .f32 := constant (F := F) S_ .f32 0x4B800000#32
  let v21 : FVec F S_ .f32 := Host.divf (F := F) v13 cst_5
  let cst_6 : FVec F S_ .f32 := constant (F := F) S_ .f32 0x3E99999A#32
  let v22 : FVec F S_ .f32 := mulf cst_6 v14
  let cst_7 : FVec F S_ .f32 := constant (F := F) S_ .f32 0x3ECCCCCD#32
  let v23 : FVec F S_ .f32 := mulf cst_7 v20
  let v24 : FVec F S_ .f32 := addf v22 v23
  let cst_8 : FVec F S_ .f32 := constant (F := F) S_ .f32 0x3E99999A#32
  let v25 : FVec F S_ .f32 := mulf cst_8 v21
  addf v24 v25

/-- The host operations after the call, composed: the value of the last one as a function of the call's result. -/
def ktail {F : FTy → Type} [FloatOps F] (O : FVec F S2x8x128 .f32) : FVec F S_ .f32 :=
  kscal (ksum O)

/-- One entry of a five-entry vector cut out and reshaped to a scalar is that entry. -/
theorem row_read {α : Type} (v3 : S5.Idx → α) (r : ℕ) (hr : r < 5) (hs : S5.Slices ![r] S1) (hc : S1.ShapeCasts S_) :
    shapeCast S_ (extractStridedSlice S1 ![r] v3 hs) hc ix0 = v3 (ix1 ⟨r, hr⟩) := by
  rw [shapeCast_apply _ hc ix0 (ix1 (0 : Fin 1)) (by
    rw [Shape.rowMajor_val_one]
    exact (Shape.rowMajorPi_zero _ _).symm)]
  exact extractStridedSlice_apply ![r] v3 hs (ix1 (0 : Fin 1)) (ix1 ⟨r, hr⟩) (fun a => by
    match a with
    | ⟨0, _⟩ => rfl)

/-- The sum over the two rows at entry `r`: the call's result at (0, r, 0) plus the one at (1, r, 0). -/
theorem ksum_apply (O : FVec Ideal S2x8x128 .f32) (r : ℕ) (hr : r < 5) :
    ksum (F := Ideal) O (ix1 ⟨r, hr⟩) = ∑ c : Fin 2, O (ix3 c ⟨r, by omega⟩ 0) := by
  unfold ksum
  simp only [Host.reduceAdd, Ideal.hostReduceAdd_def]
  rw [Ideal.hostReduceAdd_single reducesTo_S2x5_S5_d0 (by decide)]
  show Ideal.ofBits .f32 0x00000000#32 + _ = _
  rw [Ideal.ofBits_zero_f32, zero_add]
  refine Finset.sum_congr rfl fun (c : Fin 2) _ => ?_
  rw [shapeCast_apply _ shapeCasts_S2x5x1_S2x5 _ (ix3 c (⟨r, hr⟩ : Fin 5) (0 : Fin 1)) (by
    rw [Shape.rowMajor_val_three, Shape.rowMajor_val_two]
    show (c.val * 5 + r) * 1 + 0 = c.val * 5 + r
    omega)]
  exact extractStridedSlice_apply ![0, 0, 0] O slices_S2x8x128_S2x5x1_0_0_0 (ix3 c (⟨r, hr⟩ : Fin 5) (0 : Fin 1))
    (ix3 c ⟨r, by omega⟩ 0) (fun a => by
    match a with
    | ⟨0, _⟩ => show c.val = 0 + c.val; omega
    | ⟨1, _⟩ => show r = 0 + r; omega
    | ⟨2, _⟩ => rfl)

/-- The scalar arithmetic is the loss's tail of the five entries. -/
theorem kscal_apply (v3 : FVec Ideal S5 .f32) :
    kscal (F := Ideal) v3 ix0
      = Cert.Loss.tail (v3 (ix1 ⟨0, by decide⟩)) (v3 (ix1 ⟨1, by decide⟩)) (v3 (ix1 ⟨2, by decide⟩))
          (v3 (ix1 ⟨3, by decide⟩)) (v3 (ix1 ⟨4, by decide⟩)) := by
  rw [← row_read v3 0 (by decide) slices_S5_S1_0 shapeCasts_S1_S_, ← row_read v3 1 (by decide) slices_S5_S1_1 shapeCasts_S1_S_,
    ← row_read v3 2 (by decide) slices_S5_S1_2 shapeCasts_S1_S_, ← row_read v3 3 (by decide) slices_S5_S1_3 shapeCasts_S1_S_,
    ← row_read v3 4 (by decide) slices_S5_S1_4 shapeCasts_S1_S_]
  rfl

/-- The host tail on the extended reals: the loss's tail of the five sums over the two rows of the call's result. -/
theorem ktail_apply (O : FVec Ideal S2x8x128 .f32) :
    ktail (F := Ideal) O ix0
      = Cert.Loss.tail (∑ c : Fin 2, O (ix3 c 0 0)) (∑ c : Fin 2, O (ix3 c 1 0)) (∑ c : Fin 2, O (ix3 c 2 0))
          (∑ c : Fin 2, O (ix3 c 3 0)) (∑ c : Fin 2, O (ix3 c 4 0)) := by
  unfold ktail
  rw [kscal_apply, ksum_apply O 0 (by decide), ksum_apply O 1 (by decide), ksum_apply O 2 (by decide),
    ksum_apply O 3 (by decide), ksum_apply O 4 (by decide)]
  rfl

end Cert.KTail

end
-- ==== Proof.KOut.lean ====
/-
  The result array after the region, and the run read back.

  Only the last step of each core writes the output tile back, core `q` to block `q` of the [2, 8, 128] result array, and
  the two blocks are different; so entry (q, r, 0) of the array after the run is entry (0, r, 0) of the tile that step
  left, which is entry (0, 0) of accumulator `r` after that step.  The host operations after the region are the scalar
  tail applied to that array, and the argument arrays are never written.
-/
import proofs.«148036_j65008624992506_2_alg».proof.Proof.KAccum
import proofs.«148036_j65008624992506_2_alg».proof.Proof.KTail
import Idealize.ShloMosaic.Lib.ValueIdx
import Idealize.ShloMosaic.Lib.Pipeline.Value
import Idealize.ShloMosaic.Lib.StableHlo.Run

set_option maxRecDepth 16384

noncomputable section

namespace Cert.KernelIdeal.KOut

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Pieces Cert.KernelIdeal.Accum

variable {F : FTy → Type} [FloatOps F]
variable (m : (ℓ : Loc nD τ sig) → Buf (Elt F) ℓ) (ρ : Dev nD → PrngReg)

/-- The output tile of point `t` goes to block `t / 16` of the [2, 8, 128] result array. -/
theorem idx2 : ∀ t : Fin cfg0.N, win0_2.index t = ![t.val / 16, 0, 0] :=
  (by decide +kernel : ∀ t : Fin grid0.N, win0_2.index t = ![t.val / 16, 0, 0])

/-- The two points that write the output back (the last step of each core) write different blocks. -/
theorem idx_ne : ∀ t t' : Fin cfg0.N, (cfg0.win 2).flush t = true → (cfg0.win 2).flush t' = true → t ≠ t' →
    win0_2.index t ≠ win0_2.index t' :=
  (by decide +kernel : ∀ t t' : Fin grid0.N, win0_2.flush t = true → win0_2.flush t' = true → t ≠ t' →
    win0_2.index t ≠ win0_2.index t')

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk (idx_ne t t' hf hf' hne)

/-- Entry (t / 16, r, 0) of the result array after the run is entry (0, r, 0) of the output tile the last step `t` of
    core `t / 16` left. -/
theorem out_entry (c : Dev nD) (t : Fin cfg0.N) (hf : t.val % 16 = 15) (r : Fin 8) (q : Fin 2) (hq : q.val = t.val / 16) :
    (dats m 0 c).arrAt 2 cfg0.N (ix3 q r 0) = (outsAt0 m c t.val t.isLt).1 (ix3 0 r 0) := by
  have h := (dats m 0 c).arrAt_emb_eq_flushed 2 disjoint2 t ((flush0_2 t).mpr hf) (ix3 0 r 0)
  have e : ((cfg0.win 2).blk t).view.emb (ix3 0 r 0) = (ix3 q r 0 : S2x8x128.Idx) := by
    funext a; apply Fin.ext
    have hi := idx2 t
    match a with
    | ⟨0, _⟩ => show win0_2.index t (0 : Fin 3) * 1 + 1 * 0 = q.val; rw [hi, hq]; show t.val / 16 * 1 + 1 * 0 = _; omega
    | ⟨1, _⟩ => show win0_2.index t (1 : Fin 3) * 8 + 1 * r.val = r.val; rw [hi]; show 0 * 8 + 1 * r.val = _; omega
    | ⟨2, _⟩ => show win0_2.index t (2 : Fin 3) * 128 + 1 * 0 = 0; rw [hi]; rfl
  rw [e] at h
  rw [h]
  show (cfg0.win 2).cut (grid0.coords t) ((dats m 0 c).after 2 t) (ix3 0 r 0) = _
  rw [after0_2]
  rfl

/-- Entry (0, r, 0) of the output tile that the last step of a core leaves is entry (0, 0) of accumulator `r` after that
    step (r = 0 … 4). -/
theorem tile_entry_0 (c : Dev nD) (n : ℕ) (h : n + 1 < cfg0.N) (h1 : (n + 1) % 16 = 15) :
    (outsAt0 m c (n + 1) h).1 (ix3 0 0 0) = (accs m c (n + 1) h).1 (ix2 0 0) := by
  have h0 : ¬(n + 1) % 16 = 0 := by omega
  rw [outsAt0_C m c ⟨n + 1, h⟩ h0 h1]
  dsimp only
  rw [outC_0, accs, if_neg h0]
  show upd _ (outsAt0 m c n _).2.1 _ = (step5 _ _ (accs m c n _)).1 _
  rw [outsAt_accs m c n]
  rfl

theorem tile_entry_1 (c : Dev nD) (n : ℕ) (h : n + 1 < cfg0.N) (h1 : (n + 1) % 16 = 15) :
    (outsAt0 m c (n + 1) h).1 (ix3 0 1 0) = (accs m c (n + 1) h).2.1 (ix2 0 0) := by
  have h0 : ¬(n + 1) % 16 = 0 := by omega
  rw [outsAt0_C m c ⟨n + 1, h⟩ h0 h1]
  dsimp only
  rw [outC_1, accs, if_neg h0]
  show upd _ (outsAt0 m c n _).2.2.1 _ = (step5 _ _ (accs m c n _)).2.1 _
  rw [outsAt_accs m c n]
  rfl

theorem tile_entry_2 (c : Dev nD) (n : ℕ) (h : n + 1 < cfg0.N) (h1 : (n + 1) % 16 = 15) :
    (outsAt0 m c (n + 1) h).1 (ix3 0 2 0) = (accs m c (n + 1) h).2.2.1 (ix2 0 0) := by
  have h0 : ¬(n + 1) % 16 = 0 := by omega
  rw [outsAt0_C m c ⟨n + 1, h⟩ h0 h1]
  dsimp only
  rw [outC_2, accs, if_neg h0]
  show upd _ (outsAt0 m c n _).2.2.2.1 _ = (step5 _ _ (accs m c n _)).2.2.1 _
  rw [outsAt_accs m c n]
  rfl

theorem tile_entry_3 (c : Dev nD) (n : ℕ) (h : n + 1 < cfg0.N) (h1 : (n + 1) % 16 = 15) :
    (outsAt0 m c (n + 1) h).1 (ix3 0 3 0) = (accs m c (n + 1) h).2.2.2.1 (ix2 0 0) := by
  have h0 : ¬(n + 1) % 16 = 0 := by omega
  rw [outsAt0_C m c ⟨n + 1, h⟩ h0 h1]
  dsimp only
  rw [outC_3, accs, if_neg h0]
  show upd _ (outsAt0 m c n _).2.2.2.2.1 _ = (step5 _ _ (accs m c n _)).2.2.2.1 _
  rw [outsAt_accs m c n]
  rfl

theorem tile_entry_4 (c : Dev nD) (n : ℕ) (h : n + 1 < cfg0.N) (h1 : (n + 1) % 16 = 15) :
    (outsAt0 m c (n + 1) h).1 (ix3 0 4 0) = (accs m c (n + 1) h).2.2.2.2 (ix2 0 0) := by
  have h0 : ¬(n + 1) % 16 = 0 := by omega
  rw [outsAt0_C m c ⟨n + 1, h⟩ h0 h1]
  dsimp only
  rw [outC_4, accs, if_neg h0]
  show upd _ (outsAt0 m c n _).2.2.2.2.2 _ = (step5 _ _ (accs m c n _)).2.2.2.2 _
  rw [outsAt_accs m c n]
  rfl

/-- The host operations after the region compute the scalar tail of the result array. -/
theorem after_tail (V : Valuation τ sig (Elt F)) :
    StableHlo.after (hostOps1 (F := F)) V (Proc.devRef .tc main_v26) = Cert.KTail.ktail (F := F) (V (Proc.devRef .tc main_v0)) := by
  after_results_simp
  rfl

/-- So the program's result after the run is the scalar tail of the result array the region leaves. -/
theorem tail_eq (c : Dev nD) :
    Pipeline.afterTail₀ cfgs (dats m) 0 (V0 m) [hostOps1] c main_v26
      = Cert.KTail.ktail (F := F) ((dats m 0 c).arrAt 2 cfg0.N) := by
  unfold Pipeline.afterTail₀
  show StableHlo.after hostOps1 _ (Proc.devRef .tc main_v26) = _
  rw [after_tail]
  exact congrArg _ (Pipeline.withArrays_arr spec0 launch0.win.arr_inj c _ _ 2)

/-- The run, read: the result is the scalar tail of the region's result array; the two arguments end as launched. -/
theorem run : θ_run defs (onTc (τ := τ) (main (F := F))) ⟨m, fun _ => 0, ρ⟩ fun r => ∀ c : Dev nD,
      r.2.mem ((c : Thread nD τ).loc main_v26) = Cert.KTail.ktail (F := F) ((dats m 0 c).arrAt 2 cfg0.N)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v26 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KOut

end
-- ==== Proof.LibLaneSum.lean ====
/-
  A lane sum read at an index built from coordinates: the sum along the second axis of a two-axis block, started
  from the float zero, is at row `p` the sum over the lane coordinate of the block's entries in that row.
-/
import Idealize.ShloMosaic.Lib.ValueIdx
import Idealize.ShloMosaic.PureOps.Ideal.Laws

namespace Cert.LaneSum

open Idealize.ShloMosaic Idealize.ShloMosaic.ValueIdx

/-- The sum along the second axis of an `[a, k]` block of exact values, at row `p`: `∑ d, src (p, d)`.  The zero
    accumulator's proof is typed as a printed program carries it (`0 = 0` on the words). -/
theorem laneSum_apply {a k : ℕ} (src : FVec Ideal ⟨2, ![a, k]⟩ .f32)
    (h : (⟨2, ![a, k]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => by
    match ax with
    | ⟨0, _⟩ => rfl
    | ⟨1, _⟩ => rfl)

end Cert.LaneSum
-- ==== Proof.LibColSum.lean ====
/-
  A column sum read at an index, on the extended reals: the sum over axis 0 of an [a, k] array at column `q` is the
  sum over the rows `p` of the entry `(p, q)`. Stated for the kernel's `vector.multi_reduction <add>` from the zero
  word (which yields the vector [k]) and for the host's `stablehlo.reduce` with an `add` body from a scalar initial
  value (which adds that value once). This is the axis-0 companion of a lane (axis-1) sum: the form a batch
  statistic over the rows of a block, or of the whole array, takes.
-/
import Idealize.ShloMosaic.PureOps.Ideal.Laws
import Idealize.ShloMosaic.Lib.ValueIdx

noncomputable section

namespace Cert.ColSum

open Idealize.ShloMosaic Idealize.ShloMosaic.ValueIdx

/-- The index that a column sum reads at row `p`: column `q` with the row coordinate inserted in front. -/
theorem lift_eq {a k : Nat} (h : Shape.Reduces ⟨2, ![a, k]⟩ [0] ⟨1, ![k]⟩) (q : Fin k) (p : Fin a) :
    h.lift (ix1 q) p = ix2 p q := by
  funext d
  refine Fin.ext ?_
  match d with
  | ⟨0, _⟩ => rfl
  | ⟨1, _⟩ => rfl

/-- A `vector.multi_reduction <add>` over axis 0 of an [a, k] f32 block from the zero word, at column `q`. -/
theorem colSum_apply {a k : Nat} (src : FVec Ideal ⟨2, ![a, k]⟩ .f32) (h : Shape.Reduces ⟨2, ![a, k]⟩ [0] ⟨1, ![k]⟩)
    (hφ : FKind.Formats .f32) (hacc : (0x00000000#32 : BitVec 32) = FKind.add.neutral .f32 hφ) (q : Fin k) :
    multiReduction .add [0] ⟨1, ![k]⟩ src 0x00000000#32 h hφ hacc (ix1 q) = ∑ p : Fin a, src (ix2 p q) := by
  refine (Ideal.multiReduction_add_single src _ h hφ hacc (ix1 q)).trans ?_
  exact Fintype.sum_congr _ _ fun p => congrArg src (lift_eq h q p)

/-- The host's sum over axis 0 of an [a, k] array from the initial value `init`, at column `q`. -/
theorem hostColSum_apply {a k : Nat} (x : (⟨2, ![a, k]⟩ : Shape).Idx → EReal)
    (h' : Shape.ReducesTo ⟨2, ![a, k]⟩ [0] ⟨1, ![k]⟩) (h : Shape.Reduces ⟨2, ![a, k]⟩ [0] ⟨1, ![k]⟩) (init : EReal)
    (q : Fin k) :
    Ideal.hostReduceAdd h' x init (ix1 q) = init + ∑ p : Fin a, x (ix2 p q) := by
  refine (Ideal.hostReduceAdd_single h' h x init (ix1 q)).trans ?_
  exact congrArg (init + ·) (Fintype.sum_congr _ _ fun p => congrArg x (lift_eq h q p))

/-- The printed form of the host's sum: `Host.reduceAdd` of an [a, k] array and a scalar initial value over axis 0, at
    column `q`, is the scalar plus the sum over the rows. -/
theorem hostReduceAdd_col_apply {a k : Nat} (x : FVec Ideal ⟨2, ![a, k]⟩ .f32) (init : FVec Ideal ⟨0, ![]⟩ .f32)
    (h' : Shape.ReducesTo ⟨2, ![a, k]⟩ [0] ⟨1, ![k]⟩) (hu : 0 < (⟨0, ![]⟩ : Shape).numel)
    (h : Shape.Reduces ⟨2, ![a, k]⟩ [0] ⟨1, ![k]⟩) (q : Fin k) :
    Host.reduceAdd x init h' hu (ix1 q) = init ix0 + ∑ p : Fin a, x (ix2 p q) := by
  refine (hostColSum_apply x h' h _ q).trans ?_
  exact congrArg (· + ∑ p : Fin a, x (ix2 p q)) (congrArg init (funext fun d => d.elim0))

end Cert.ColSum
-- ==== Proof.KBlockOps.lean ====
/-
  The block's layout operations and reductions read at an index written by coordinates.

  A block of two 512 × 512 images arrives with a unit axis, [2, 1, 512, 512]; the arithmetic is done on its cast to
  [2, 512, 512], whose entry (b, h, w) is the block's entry (b, 0, h, w).  A block of that shape is summed in three
  steps: over the image axis into [512, 512], over the rows into [512], and, after a cast to [1, 512], over the
  columns into [1], which is cast to [1, 1].  Started from the float zero each step is the finite sum over the axis it
  removes, so the result at its one index is the iterated sum  Σ_w Σ_h Σ_b v (b, h, w).
-/
import proofs.«148036_j65008624992506_2_alg».proof.Proof.Gen.KernelIdeal.Skeleton
import proofs.«148036_j65008624992506_2_alg».proof.Proof.Spec
import proofs.«148036_j65008624992506_2_alg».proof.Proof.LibLaneSum
import proofs.«148036_j65008624992506_2_alg».proof.Proof.LibColSum
import Idealize.ShloMosaic.Lib.ValueIdx
import Idealize.ShloMosaic.Lib.Pipeline.Value
import Idealize.ShloMosaic.Lib.ValueLayout
import Idealize.ShloMosaic.PureOps.Ideal.Laws

noncomputable section

namespace Cert.KBlock

open Idealize.ShloMosaic Idealize.ShloMosaic.ValueIdx Cert.KernelIdeal Cert.KernelIdeal.Gen

/-- The cast that drops the unit axis of a [2, 1, 512, 512] block reads (b, h, w) at (b, 0, h, w). -/
theorem cast4_apply {α : Type} (x : S2x1x512x512.Idx → α) (hc : S2x1x512x512.ShapeCasts S2x512x512)
    (b : Fin 2) (h w : Fin 512) : shapeCast S2x512x512 x hc (ix3 b h w) = x (ix4 b (0 : Fin 1) h w) :=
  shapeCast_apply x hc _ _ (by
    rw [Shape.rowMajor_val_four, Shape.rowMajor_val_three]
    show ((b.val * 1 + 0) * 512 + h.val) * 512 + w.val = (b.val * 512 + h.val) * 512 + w.val
    rw [Nat.mul_one, Nat.add_zero])

/-- The index a sum over the leading axis of a three-axis block reads at coordinate `p` of that axis. -/
theorem lift3_eq {a m k : Nat} (hr : Shape.Reduces ⟨3, ![a, m, k]⟩ [0] ⟨2, ![m, k]⟩) (r : Fin m) (c : Fin k) (p : Fin a) :
    hr.lift (ix2 r c) p = ix3 p r c := by
  funext d
  refine Fin.ext ?_
  match d with
  | ⟨0, _⟩ => rfl
  | ⟨1, _⟩ => rfl
  | ⟨2, _⟩ => rfl

/-- The sum over the leading axis of an [a, m, k] block from the zero word, at (r, c): Σ_p src (p, r, c). -/
theorem leadSum_apply {a m k : Nat} (src : FVec Ideal ⟨3, ![a, m, k]⟩ .f32)
    (hr : Shape.Reduces ⟨3, ![a, m, k]⟩ [0] ⟨2, ![m, k]⟩) (hφ : FKind.Formats .f32)
    (hacc : (0x00000000#32 : BitVec 32) = FKind.add.neutral .f32 hφ) (r : Fin m) (c : Fin k) :
    multiReduction .add [0] ⟨2, ![m, k]⟩ src 0x00000000#32 hr hφ hacc (ix2 r c) = ∑ p : Fin a, src (ix3 p r c) := by
  refine (Ideal.multiReduction_add_single src _ hr hφ hacc (ix2 r c)).trans ?_
  exact Fintype.sum_congr _ _ fun p => congrArg src (lift3_eq hr r c p)

/-- The three-step sum of a [2, 512, 512] block, as the kernel writes it. -/
def blockSum (v : FVec Ideal S2x512x512 .f32) : FVec Ideal S1x1 .f32 :=
  shapeCast S1x1
    (multiReduction .add [1] S1
      (shapeCast S1x512
        (multiReduction .add [0] S512
          (multiReduction .add [0] S512x512 v 0x00000000#32 reduces_S2x512x512_S512x512 (.inl rfl) rfl)
          0x00000000#32 reduces_S512x512_S512 (.inl rfl) rfl)
        shapeCasts_S512_S1x512)
      0x00000000#32 reduces_S1x512_S1 (.inl rfl) rfl)
    shapeCasts_S1_S1x1

/-- The three-step sum at its one index: columns outermost, then rows, then the two images. -/
theorem blockSum_apply (v : FVec Ideal S2x512x512 .f32) (j : S1x1.Idx) :
    blockSum v j = ∑ w : Fin 512, ∑ h : Fin 512, ∑ b : Fin 2, v (ix3 b h w) := by
  unfold blockSum
  rw [eq_ix2 j]
  refine (shapeCast_a_1a_apply _ shapeCasts_S1_S1x1 (j 0) (j 1)).trans ?_
  refine (Cert.LaneSum.laneSum_apply _ reduces_S1x512_S1 (.inl rfl) rfl (j 1)).trans ?_
  refine Finset.sum_congr rfl fun w _ => ?_
  refine (shapeCast_a_1a_apply _ shapeCasts_S512_S1x512 (j 1) w).trans ?_
  refine (Cert.ColSum.colSum_apply _ reduces_S512x512_S512 (.inl rfl) rfl w).trans ?_
  refine Finset.sum_congr rfl fun h _ => ?_
  exact leadSum_apply _ reduces_S2x512x512_S512x512 (.inl rfl) rfl h w

end Cert.KBlock

end
-- ==== Proof.KBlockSums.lean ====
/-
  Three of the block's five sums: the targets, the logistic values, and their products.

  Each is the three-step sum of a block of entrywise values.  The targets are summed as loaded; the logistic value of
  a logit x is computed as the quotient 1 / (1 + e^(0 − x)), where 0 − x = −x; the intersection multiplies it by
  the target.
-/
import proofs.«148036_j65008624992506_2_alg».proof.Proof.KBlockOps

noncomputable section

namespace Cert.KBlock

open Idealize.ShloMosaic Idealize.ShloMosaic.ValueIdx Cert.KernelIdeal Cert.KernelIdeal.Gen

/-- The logits' block without its unit axis, at (b, h, w). -/
theorem pay16_apply (x0 : Vec Ideal S2x1x512x512 .f32) (b : Fin 2) (h w : Fin 512) :
    k0_pay16 x0 (ix3 b h w) = x0 (ix4 b 0 h w) :=
  cast4_apply x0 shapeCasts_S2x1x512x512_S2x512x512 b h w

/-- The targets' block without its unit axis, at (b, h, w). -/
theorem pay17_apply (x1 : Vec Ideal S2x1x512x512 .f32) (b : Fin 2) (h w : Fin 512) :
    k0_pay17 x1 (ix3 b h w) = x1 (ix4 b 0 h w) :=
  cast4_apply x1 shapeCasts_S2x1x512x512_S2x512x512 b h w

/-- The logistic denominator 1 + e^(−x) at (b, h, w). -/
theorem pay20_apply (x0 : Vec Ideal S2x1x512x512 .f32) (b : Fin 2) (h w : Fin 512) :
    k0_pay20 x0 (ix3 b h w) = Cert.Loss.c1 + Ideal.exp (-(x0 (ix4 b 0 h w))) := by
  show Ideal.ofBits .f32 0x3F800000#32 + Ideal.exp (Ideal.ofBits .f32 0x00000000#32 - k0_pay16 x0 (ix3 b h w)) = _
  rw [Ideal.ofBits_zero_f32, zero_sub, pay16_apply]
  rfl

/-- The logistic value at (b, h, w). -/
theorem pay21_apply (x0 : Vec Ideal S2x1x512x512 .f32) (b : Fin 2) (h w : Fin 512) :
    k0_pay21 (k0_pay20 x0) (FloatOps.ofBits .f32 0x3F800000#32) (ix3 b h w) = Cert.Loss.sig (x0 (ix4 b 0 h w)) := by
  show Ideal.div (Ideal.ofBits .f32 0x3F800000#32) (k0_pay20 x0 (ix3 b h w)) = _
  rw [pay20_apply]
  rfl

/-- The block's sum of the targets. -/
theorem tsum_block (x1 : Vec Ideal S2x1x512x512 .f32) (j : S1x1.Idx) :
    k0_pay24 (k0_pay17 x1) j = ∑ w : Fin 512, ∑ h : Fin 512, ∑ b : Fin 2, x1 (ix4 b 0 h w) := by
  refine (blockSum_apply (k0_pay17 x1) j).trans ?_
  exact Finset.sum_congr rfl fun w _ => Finset.sum_congr rfl fun h _ => Finset.sum_congr rfl fun b _ =>
    pay17_apply x1 b h w

/-- The block's sum of the logistic values. -/
theorem psum_block (x0 : Vec Ideal S2x1x512x512 .f32) (j : S1x1.Idx) :
    k0_pay23 (k0_pay20 x0) (FloatOps.ofBits .f32 0x3F800000#32) j
      = ∑ w : Fin 512, ∑ h : Fin 512, ∑ b : Fin 2, Cert.Loss.sig (x0 (ix4 b 0 h w)) := by
  refine (blockSum_apply (k0_pay21 (k0_pay20 x0) (FloatOps.ofBits .f32 0x3F800000#32)) j).trans ?_
  exact Finset.sum_congr rfl fun w _ => Finset.sum_congr rfl fun h _ => Finset.sum_congr rfl fun b _ =>
    pay21_apply x0 b h w

/-- The block's sum of the products of logistic value and target. -/
theorem inter_block (x0 x1 : Vec Ideal S2x1x512x512 .f32) (j : S1x1.Idx) :
    k0_pay22 (k0_pay17 x1) (k0_pay20 x0) (FloatOps.ofBits .f32 0x3F800000#32) j
      = ∑ w : Fin 512, ∑ h : Fin 512, ∑ b : Fin 2, Cert.Loss.sig (x0 (ix4 b 0 h w)) * x1 (ix4 b 0 h w) := by
  refine (blockSum_apply (mulf (k0_pay21 (k0_pay20 x0) (FloatOps.ofBits .f32 0x3F800000#32)) (k0_pay17 x1)) j).trans ?_
  refine Finset.sum_congr rfl fun w _ => Finset.sum_congr rfl fun h _ => Finset.sum_congr rfl fun b _ => ?_
  show k0_pay21 (k0_pay20 x0) (FloatOps.ofBits .f32 0x3F800000#32) (ix3 b h w) * k0_pay17 x1 (ix3 b h w) = _
  rw [pay21_apply, pay17_apply]

end Cert.KBlock

end
-- ==== Proof.KBlockFocal.lean ====
/-
  The block's sum of the focal terms.

  The entrywise cross-entropy is  max x 0 − x t + log (1 + e^(0 − |x|)),  with 0 − y = −y.  The focal term multiplies
  it by a quarter of the square of  y = 1 − e^(0 − bce),  the square written as the product y · y where the
  specification writes the power with exponent two.  The two agree on a real y, and y is real as soon as x and t are:
  maximum, product, difference, sum, negation and the exponential of reals are real, and the logarithm is taken of
  1 + e^(−|x|) > 0.
-/
import proofs.«148036_j65008624992506_2_alg».proof.Proof.KBlockSums

noncomputable section

namespace Cert.KBlock

open Idealize.ShloMosaic Idealize.ShloMosaic.ValueIdx Cert.KernelIdeal Cert.KernelIdeal.Gen

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

theorem IsReal.exp {x : EReal} (hx : IsReal x) : IsReal (Ideal.exp x) := by
  obtain ⟨a, rfl⟩ := hx
  exact ⟨Real.exp a, rfl⟩

theorem IsReal.absf {x : EReal} (hx : IsReal x) : IsReal (FloatOps.absf (F := Ideal) (φ := .f32) x) :=
  hx.max hx.neg

/-- The logarithm of one plus an exponential of a real is real: its argument is positive. -/
theorem IsReal.log1p_exp {x : EReal} (hx : IsReal x) : IsReal (Ideal.log1p (Ideal.exp x)) := by
  obtain ⟨a, rfl⟩ := hx
  refine ⟨Real.log (1 + Real.exp a), ?_⟩
  show Ideal.log (1 + ((Real.exp a : ℝ) : EReal)) = _
  rw [← EReal.coe_one, ← EReal.coe_add, Ideal.log_coe, if_neg (not_le.mpr (by positivity))]

/-- The float words of zero, one and two are the numbers. -/
theorem c0_eq : Cert.Loss.c0 = 0 := Ideal.ofBits_zero_f32

theorem c1_eq : Cert.Loss.c1 = ((1 : ℝ) : EReal) := by
  unfold Cert.Loss.c1
  simp [Ideal.ofBits, Ideal.ieee, -EReal.coe_mul]
  norm_num

theorem c2_eq : Cert.Loss.c2 = ((2 : ℝ) : EReal) := by
  unfold Cert.Loss.c2
  simp [Ideal.ofBits, Ideal.ieee, -EReal.coe_mul]
  norm_num

/-- Zero minus a value, as the kernel writes a negation. -/
theorem zero_word_sub (y : EReal) : Ideal.ofBits .f32 0x00000000#32 - y = -y := by
  rw [Ideal.ofBits_zero_f32, zero_sub]

/-- The entrywise cross-entropy of reals is real. -/
theorem isReal_bce {x t : EReal} (hx : IsReal x) (ht : IsReal t) : IsReal (Cert.Loss.bce x t) := by
  unfold Cert.Loss.bce
  refine ((hx.max ?_).sub (hx.mul ht)).add hx.absf.neg.log1p_exp
  rw [c0_eq]
  exact ⟨0, rfl⟩

/-- On a real the power with exponent two is the product with itself. -/
theorem pow_two_of_isReal {y : EReal} (hy : IsReal y) : Ideal.pow y Cert.Loss.c2 = y * y := by
  obtain ⟨a, rfl⟩ := hy
  rw [c2_eq, Ideal.pow_coe_coe, ← EReal.coe_mul]
  exact congrArg _ ((Real.rpow_two a).trans (pow_two a))

/-- The cross-entropy block at (b, h, w). -/
theorem pay18_apply (x0 x1 : Vec Ideal S2x1x512x512 .f32) (b : Fin 2) (h w : Fin 512) :
    k0_pay18 x0 x1 (ix3 b h w) = Cert.Loss.bce (x0 (ix4 b 0 h w)) (x1 (ix4 b 0 h w)) := by
  show (Max.max (k0_pay16 x0 (ix3 b h w)) (Ideal.ofBits .f32 0x00000000#32)
        - k0_pay16 x0 (ix3 b h w) * k0_pay17 x1 (ix3 b h w))
      + Ideal.log1p (Ideal.exp (Ideal.ofBits .f32 0x00000000#32 - FloatOps.absf (k0_pay16 x0 (ix3 b h w)))) = _
  rw [zero_word_sub, pay16_apply, pay17_apply]
  rfl

/-- The block's sum of the focal terms, for real logits and targets. -/
theorem focal_block (x0 x1 : Vec Ideal S2x1x512x512 .f32) (j : S1x1.Idx)
    (hx : ∀ i, ∃ r : ℝ, x0 i = (r : EReal)) (ht : ∀ i, ∃ r : ℝ, x1 i = (r : EReal)) :
    k0_pay19 x0 x1 j
      = ∑ w : Fin 512, ∑ h : Fin 512, ∑ b : Fin 2, Cert.Loss.focal (x0 (ix4 b 0 h w)) (x1 (ix4 b 0 h w)) := by
  refine (blockSum_apply _ j).trans ?_
  refine Finset.sum_congr rfl fun w _ => Finset.sum_congr rfl fun h _ => Finset.sum_congr rfl fun b _ => ?_
  show (Ideal.ofBits .f32 0x3E800000#32
        * ((Ideal.ofBits .f32 0x3F800000#32 - Ideal.exp (Ideal.ofBits .f32 0x00000000#32 - k0_pay18 x0 x1 (ix3 b h w)))
          * (Ideal.ofBits .f32 0x3F800000#32 - Ideal.exp (Ideal.ofBits .f32 0x00000000#32 - k0_pay18 x0 x1 (ix3 b h w)))))
      * k0_pay18 x0 x1 (ix3 b h w) = _
  rw [zero_word_sub, pay18_apply]
  have hb : IsReal (Cert.Loss.bce (x0 (ix4 b 0 h w)) (x1 (ix4 b 0 h w))) := isReal_bce (hx _) (ht _)
  have hy : IsReal (Cert.Loss.c1 - Ideal.exp (-(Cert.Loss.bce (x0 (ix4 b 0 h w)) (x1 (ix4 b 0 h w))))) :=
    IsReal.sub ⟨1, c1_eq⟩ hb.neg.exp
  unfold Cert.Loss.focal
  rw [pow_two_of_isReal hy]
  rfl

end Cert.KBlock

end
-- ==== Proof.KBlockStencil.lean ====
/-
  The mask, the four guarded shifts, and one pass of the cross-shaped erosion and dilation, read at an index.

  A rotation by one along an axis brings to position i the entry at i − 1, and the entry at the far end to position 0;
  a rotation by 511 brings the entry at i + 1, and the entry at 0 to position 511.  The kernel replaces the wrapped
  entry by zero (it compares the coordinate with 0, respectively 511), so the four shifted blocks hold at (h, w) the
  neighbour above, below, to the left and to the right when that neighbour is inside the image, and zero otherwise.
  On blocks whose entries are the numbers one and zero of a grid of truth values, minimum is conjunction and maximum
  is disjunction, so the minimum, respectively maximum, of a block and its four shifts is the grid's erosion,
  respectively dilation.
-/
import proofs.«148036_j65008624992506_2_alg».proof.Proof.KBlockFocal
import Idealize.ShloMosaic.Lib.KernelVsHost

noncomputable section

namespace Cert.KBlock

open Idealize.ShloMosaic Idealize.ShloMosaic.ValueIdx Cert.KernelIdeal Cert.KernelIdeal.Gen
open Cert.Loss (ind erode dilate band mask)

/-! ## Truth values as numbers -/

theorem ind_false : ind false = 0 := rfl

theorem ind_true : ind true = 1 := rfl

theorem min_ind (p q : Bool) : min (ind p) (ind q) = ind (p && q) := by
  cases p <;> cases q <;> simp [ind]

theorem max_ind (p q : Bool) : max (ind p) (ind q) = ind (p || q) := by
  cases p <;> cases q <;> simp [ind]

/-! ## A guarded choice -/

/-- The choice guarded by "the two words differ". -/
theorem guard_ne_apply {α : Type} (x y : BitVec 32) (a z : α) :
    Scalar.select (IntOp.cmpi .ne x y) a z = if x = y then z else a := by
  by_cases hxy : x = y
  · rw [if_pos hxy]
    subst hxy
    show Scalar.select (BitVec.ofBool (x != x)) a z = z
    rw [bne_self_eq_false]
    exact select_zero a z
  · rw [if_neg hxy]
    show Scalar.select (BitVec.ofBool (x != y)) a z = a
    rw [bne_iff_ne.mpr hxy]
    exact select_one a z

/-- A coordinate below 2³² equals a word exactly when it equals the word's number. -/
theorem ofNat_eq_iff (n : Nat) (hn : n < 512) (e : BitVec 32) : BitVec.ofNat 32 n = e ↔ n = e.toNat := by
  constructor
  · intro he
    rw [← he, BitVec.toNat_ofNat]
    exact (Nat.mod_eq_of_lt (by omega)).symm
  · intro he
    refine BitVec.eq_of_toNat_eq ?_
    rw [BitVec.toNat_ofNat, ← he]
    exact Nat.mod_eq_of_lt (by omega)

/-! ## The rotations -/

/-- A rotation along the rows reads row `h'`, the row moved back by the amount around the end. -/
theorem rotRow_apply {α : Type} (n : BitVec 32) (v : S2x512x512.Idx → α) (hr : S2x512x512.Rotates 1 none)
    (b : Fin 2) (h h' w : Fin 512) (hh : h'.val = (h.val + 512 - n.toNat % 512) % 512) :
    dynamicRotate 1 n none v hr (ix3 b h w) = v (ix3 b h' w) :=
  dynamicRotate_apply 1 n v hr _ _ fun c => by
    match c with
    | ⟨0, _⟩ => rfl
    | ⟨1, _⟩ => exact hh
    | ⟨2, _⟩ => rfl

/-- A rotation along the columns reads column `w'`, the column moved back by the amount around the end. -/
theorem rotCol_apply {α : Type} (n : BitVec 32) (v : S2x512x512.Idx → α) (hr : S2x512x512.Rotates 2 none)
    (b : Fin 2) (h w w' : Fin 512) (hw : w'.val = (w.val + 512 - n.toNat % 512) % 512) :
    dynamicRotate 2 n none v hr (ix3 b h w) = v (ix3 b h w') :=
  dynamicRotate_apply 2 n v hr _ _ fun c => by
    match c with
    | ⟨0, _⟩ => rfl
    | ⟨1, _⟩ => rfl
    | ⟨2, _⟩ => exact hw

/-- The row coordinate as a word. -/
theorem iotaRow_apply (hi : S2x512x512.Iotas .tc 32 [1]) (b : Fin 2) (h w : Fin 512) :
    iota .tc S2x512x512 32 [1] hi (ix3 b h w) = BitVec.ofNat 32 h.val := by
  show BitVec.ofNat 32 (0 * 512 + h.val) = _
  rw [Nat.zero_mul, Nat.zero_add]

/-- The column coordinate as a word. -/
theorem iotaCol_apply (hi : S2x512x512.Iotas .tc 32 [2]) (b : Fin 2) (h w : Fin 512) :
    iota .tc S2x512x512 32 [2] hi (ix3 b h w) = BitVec.ofNat 32 w.val := by
  show BitVec.ofNat 32 (0 * 512 + w.val) = _
  rw [Nat.zero_mul, Nat.zero_add]

/-! ## The four guarded shifts, as the kernel writes them -/

/-- The neighbour above: rows rotated by one, row 0 zeroed. -/
def up (v : FVec Ideal S2x512x512 .f32) : FVec Ideal S2x512x512 .f32 :=
  select (cmpi .ne (iota .tc S2x512x512 32 [1] iota_S2x512x512_d1_w32) (broadcast S2x512x512 0#32))
    (dynamicRotate 1 1#32 none v rotates_S2x512x512_d1) (broadcast S2x512x512 (Scalar.ofBits .f32 0x00000000#32))

/-- The neighbour below: rows rotated by 511, row 511 zeroed. -/
def down (v : FVec Ideal S2x512x512 .f32) : FVec Ideal S2x512x512 .f32 :=
  select (cmpi .ne (iota .tc S2x512x512 32 [1] iota_S2x512x512_d1_w32) (broadcast S2x512x512 511#32))
    (dynamicRotate 1 511#32 none v rotates_S2x512x512_d1) (broadcast S2x512x512 (Scalar.ofBits .f32 0x00000000#32))

/-- The neighbour to the left: columns rotated by one, column 0 zeroed. -/
def left (v : FVec Ideal S2x512x512 .f32) : FVec Ideal S2x512x512 .f32 :=
  select (cmpi .ne (iota .tc S2x512x512 32 [2] iota_S2x512x512_d2_w32) (broadcast S2x512x512 0#32))
    (dynamicRotate 2 1#32 none v rotates_S2x512x512_d2) (broadcast S2x512x512 (Scalar.ofBits .f32 0x00000000#32))

/-- The neighbour to the right: columns rotated by 511, column 511 zeroed. -/
def right (v : FVec Ideal S2x512x512 .f32) : FVec Ideal S2x512x512 .f32 :=
  select (cmpi .ne (iota .tc S2x512x512 32 [2] iota_S2x512x512_d2_w32) (broadcast S2x512x512 511#32))
    (dynamicRotate 2 511#32 none v rotates_S2x512x512_d2) (broadcast S2x512x512 (Scalar.ofBits .f32 0x00000000#32))

section Shifts

variable (g : Fin 2 → ℕ → ℕ → Bool) (v : FVec Ideal S2x512x512 .f32)
  (hv : ∀ (b : Fin 2) (h w : Fin 512), v (ix3 b h w) = ind (g b h.val w.val))
include hv

theorem up_apply (b : Fin 2) (h w : Fin 512) :
    up v (ix3 b h w) = ind (decide (0 < h.val) && g b (h.val - 1) w.val) := by
  show Scalar.select (IntOp.cmpi .ne (iota .tc S2x512x512 32 [1] iota_S2x512x512_d1_w32 (ix3 b h w)) 0#32)
      (dynamicRotate 1 1#32 none v rotates_S2x512x512_d1 (ix3 b h w)) (Ideal.ofBits .f32 0x00000000#32) = _
  rw [iotaRow_apply, guard_ne_apply, Ideal.ofBits_zero_f32]
  by_cases h0 : h.val = 0
  · rw [if_pos ((ofNat_eq_iff h.val h.isLt 0#32).mpr h0), h0]
    rfl
  · rw [if_neg (fun he => h0 ((ofNat_eq_iff h.val h.isLt 0#32).mp he))]
    rw [rotRow_apply 1#32 v _ b h ⟨h.val - 1, by omega⟩ w
      (by show h.val - 1 = (h.val + 512 - 1 % 512) % 512; omega), hv]
    have hd : decide (0 < h.val) = true := decide_eq_true (by omega)
    rw [hd, Bool.true_and]

theorem down_apply (b : Fin 2) (h w : Fin 512) :
    down v (ix3 b h w) = ind (decide (h.val < 511) && g b (h.val + 1) w.val) := by
  show Scalar.select (IntOp.cmpi .ne (iota .tc S2x512x512 32 [1] iota_S2x512x512_d1_w32 (ix3 b h w)) 511#32)
      (dynamicRotate 1 511#32 none v rotates_S2x512x512_d1 (ix3 b h w)) (Ideal.ofBits .f32 0x00000000#32) = _
  rw [iotaRow_apply, guard_ne_apply, Ideal.ofBits_zero_f32]
  by_cases h0 : h.val = 511
  · rw [if_pos ((ofNat_eq_iff h.val h.isLt 511#32).mpr h0), h0]
    rfl
  · rw [if_neg (fun he => h0 ((ofNat_eq_iff h.val h.isLt 511#32).mp he))]
    have hlt : h.val < 511 := by omega
    rw [rotRow_apply 511#32 v _ b h ⟨h.val + 1, by omega⟩ w
      (by show h.val + 1 = (h.val + 512 - 511 % 512) % 512; omega), hv]
    have hd : decide (h.val < 511) = true := decide_eq_true hlt
    rw [hd, Bool.true_and]

theorem left_apply (b : Fin 2) (h w : Fin 512) :
    left v (ix3 b h w) = ind (decide (0 < w.val) && g b h.val (w.val - 1)) := by
  show Scalar.select (IntOp.cmpi .ne (iota .tc S2x512x512 32 [2] iota_S2x512x512_d2_w32 (ix3 b h w)) 0#32)
      (dynamicRotate 2 1#32 none v rotates_S2x512x512_d2 (ix3 b h w)) (Ideal.ofBits .f32 0x00000000#32) = _
  rw [iotaCol_apply, guard_ne_apply, Ideal.ofBits_zero_f32]
  by_cases h0 : w.val = 0
  · rw [if_pos ((ofNat_eq_iff w.val w.isLt 0#32).mpr h0), h0]
    rfl
  · rw [if_neg (fun he => h0 ((ofNat_eq_iff w.val w.isLt 0#32).mp he))]
    rw [rotCol_apply 1#32 v _ b h w ⟨w.val - 1, by omega⟩
      (by show w.val - 1 = (w.val + 512 - 1 % 512) % 512; omega), hv]
    have hd : decide (0 < w.val) = true := decide_eq_true (by omega)
    rw [hd, Bool.true_and]

theorem right_apply (b : Fin 2) (h w : Fin 512) :
    right v (ix3 b h w) = ind (decide (w.val < 511) && g b h.val (w.val + 1)) := by
  show Scalar.select (IntOp.cmpi .ne (iota .tc S2x512x512 32 [2] iota_S2x512x512_d2_w32 (ix3 b h w)) 511#32)
      (dynamicRotate 2 511#32 none v rotates_S2x512x512_d2 (ix3 b h w)) (Ideal.ofBits .f32 0x00000000#32) = _
  rw [iotaCol_apply, guard_ne_apply, Ideal.ofBits_zero_f32]
  by_cases h0 : w.val = 511
  · rw [if_pos ((ofNat_eq_iff w.val w.isLt 511#32).mpr h0), h0]
    rfl
  · rw [if_neg (fun he => h0 ((ofNat_eq_iff w.val w.isLt 511#32).mp he))]
    have hlt : w.val < 511 := by omega
    rw [rotCol_apply 511#32 v _ b h w ⟨w.val + 1, by omega⟩
      (by show w.val + 1 = (w.val + 512 - 511 % 512) % 512; omega), hv]
    have hd : decide (w.val < 511) = true := decide_eq_true hlt
    rw [hd, Bool.true_and]

end Shifts

/-! ## One pass of the erosion and of the dilation -/

/-- The minimum of a block and its four guarded shifts, in the kernel's order. -/
def erodeV (v : FVec Ideal S2x512x512 .f32) : FVec Ideal S2x512x512 .f32 :=
  minimumf (minimumf (minimumf (minimumf v (up v)) (down v)) (left v)) (right v)

/-- The maximum of a block and its four guarded shifts, in the kernel's order. -/
def dilateV (v : FVec Ideal S2x512x512 .f32) : FVec Ideal S2x512x512 .f32 :=
  maximumf (maximumf (maximumf (maximumf v (up v)) (down v)) (left v)) (right v)

theorem erodeV_apply (g : Fin 2 → ℕ → ℕ → Bool) (v : FVec Ideal S2x512x512 .f32)
    (hv : ∀ (b : Fin 2) (h w : Fin 512), v (ix3 b h w) = ind (g b h.val w.val)) (b : Fin 2) (h w : Fin 512) :
    erodeV v (ix3 b h w) = ind (erode (g b) h.val w.val) := by
  show min (min (min (min (v (ix3 b h w)) (up v (ix3 b h w))) (down v (ix3 b h w))) (left v (ix3 b h w)))
      (right v (ix3 b h w)) = _
  rw [hv, up_apply g v hv, down_apply g v hv, left_apply g v hv, right_apply g v hv,
    min_ind, min_ind, min_ind, min_ind]
  rfl

theorem dilateV_apply (g : Fin 2 → ℕ → ℕ → Bool) (v : FVec Ideal S2x512x512 .f32)
    (hv : ∀ (b : Fin 2) (h w : Fin 512), v (ix3 b h w) = ind (g b h.val w.val)) (b : Fin 2) (h w : Fin 512) :
    dilateV v (ix3 b h w) = ind (dilate (g b) h.val w.val) := by
  show max (max (max (max (v (ix3 b h w)) (up v (ix3 b h w))) (down v (ix3 b h w))) (left v (ix3 b h w)))
      (right v (ix3 b h w)) = _
  rw [hv, up_apply g v hv, down_apply g v hv, left_apply g v hv, right_apply g v hv,
    max_ind, max_ind, max_ind, max_ind]
  rfl

/-! ## The mask as a block of ones and zeros -/

/-- A truth value's bit, widened and converted, is its number. -/
theorem sitofp_ofBool (c : Bool) :
    FloatOps.sitofp (F := Ideal) FTy.f32 ((BitVec.ofBool c).setWidth 32) = ind c := by
  cases c
  · have e : ((BitVec.ofBool false).setWidth 32).toInt = 0 := by decide
    show (((((BitVec.ofBool false).setWidth 32).toInt : ℤ) : ℝ) : EReal) = 0
    rw [e, Int.cast_zero, EReal.coe_zero]
  · have e : ((BitVec.ofBool true).setWidth 32).toInt = 1 := by decide
    show (((((BitVec.ofBool true).setWidth 32).toInt : ℤ) : ℝ) : EReal) = 1
    rw [e, Int.cast_one, EReal.coe_one]

/-- The kernel's mask block at (b, h, w): the number of "the target exceeds one half". -/
theorem pay25_apply (x1 : Vec Ideal S2x1x512x512 .f32) (b : Fin 2) (h w : Fin 512) :
    k0_pay25 (k0_pay17 x1) (ix3 b h w) = ind (mask (fun h w => x1 (ix4 b 0 h w)) h.val w.val) := by
  show FloatOps.sitofp (F := Ideal) FTy.f32
      ((Ideal.cmp .ogt (k0_pay17 x1 (ix3 b h w)) (Ideal.ofBits .f32 0x3F000000#32)).setWidth 32) = _
  rw [pay17_apply]
  show FloatOps.sitofp (F := Ideal) FTy.f32
      ((BitVec.ofBool (decide (Cert.Loss.cH < x1 (ix4 b 0 h w)))).setWidth 32) = _
  rw [sitofp_ofBool]
  unfold Cert.Loss.mask
  rw [dif_pos ⟨h.isLt, w.isLt⟩]

/-! ## The kernel's two erosions and two dilations -/

/-- The values the kernel passes between its parts make up two passes of the erosion of the mask block. -/
theorem pay30_eq (t : FVec Ideal S2x512x512 .f32) :
    k0_pay30 (k0_pay25 t) (k0_pay26 t) (k0_pay27 t) k0_pay28 k0_pay29 = erodeV (erodeV (k0_pay25 t)) := rfl

/-- The first dilation. -/
theorem pay34_eq (m : FVec Ideal S2x512x512 .f32) :
    k0_pay34 m (k0_pay31 m) k0_pay32 k0_pay33 = dilateV m := rfl

/-- The twice-eroded mask at (b, h, w). -/
theorem erode2_apply (x1 : Vec Ideal S2x1x512x512 .f32) (b : Fin 2) (h w : Fin 512) :
    erodeV (erodeV (k0_pay25 (k0_pay17 x1))) (ix3 b h w)
      = ind (erode (erode (mask fun h w => x1 (ix4 b 0 h w))) h.val w.val) :=
  erodeV_apply (fun b => erode (mask fun h w => x1 (ix4 b 0 h w))) _
    (erodeV_apply (fun b => mask fun h w => x1 (ix4 b 0 h w)) _ (pay25_apply x1)) b h w

/-- The twice-dilated mask at (b, h, w). -/
theorem dilate2_apply (x1 : Vec Ideal S2x1x512x512 .f32) (b : Fin 2) (h w : Fin 512) :
    dilateV (dilateV (k0_pay25 (k0_pay17 x1))) (ix3 b h w)
      = ind (dilate (dilate (mask fun h w => x1 (ix4 b 0 h w))) h.val w.val) :=
  dilateV_apply (fun b => dilate (mask fun h w => x1 (ix4 b 0 h w))) _
    (dilateV_apply (fun b => mask fun h w => x1 (ix4 b 0 h w)) _ (pay25_apply x1)) b h w

/-! ## The band -/

theorem one_sub_ind (e : Bool) : Cert.Loss.c1 - ind e = ind (!e) := by
  cases e
  · show Cert.Loss.c1 - 0 = 1
    rw [sub_zero, c1_eq]
    rfl
  · show Cert.Loss.c1 - 1 = 0
    rw [c1_eq, ← EReal.coe_one, ← EReal.coe_sub, sub_self]
    rfl

theorem ind_mul (p q : Bool) : ind p * ind q = ind (p && q) := by
  cases p <;> cases q <;> simp [ind]

end Cert.KBlock

end
-- ==== Proof.KBlockValue.lean ====
/-
  The block's sum of the cross-entropy weighted by the boundary band.

  The kernel erodes the mask block twice and dilates it twice, multiplies the twice-dilated block by one minus the
  twice-eroded one — the number of "in the dilation and not in the erosion", the band —, scales by five, adds one,
  and multiplies the entrywise cross-entropy by the result before the three-step sum.
-/
import proofs.«148036_j65008624992506_2_alg».proof.Proof.KBlockStencil

noncomputable section

namespace Cert.KBlock

open Idealize.ShloMosaic Idealize.ShloMosaic.ValueIdx Cert.KernelIdeal Cert.KernelIdeal.Gen
open Cert.Loss (ind erode dilate band mask)

/-- The block's sum of the cross-entropy weighted six on the boundary band and one elsewhere. -/
theorem bound_block (x0 x1 : Vec Ideal S2x1x512x512 .f32) (j : S1x1.Idx) :
    k0_pay39 (k0_pay18 x0 x1)
        (k0_pay30 (k0_pay25 (k0_pay17 x1)) (k0_pay26 (k0_pay17 x1)) (k0_pay27 (k0_pay17 x1)) k0_pay28 k0_pay29)
        (k0_pay34 (k0_pay25 (k0_pay17 x1)) (k0_pay31 (k0_pay25 (k0_pay17 x1))) k0_pay32 k0_pay33)
        (k0_pay35 (k0_pay25 (k0_pay17 x1)) (k0_pay31 (k0_pay25 (k0_pay17 x1))) k0_pay32 k0_pay33)
        (k0_pay36 (k0_pay25 (k0_pay17 x1)) (k0_pay31 (k0_pay25 (k0_pay17 x1))) k0_pay32 k0_pay33)
        k0_pay37 k0_pay38 j
      = ∑ w : Fin 512, ∑ h : Fin 512, ∑ b : Fin 2,
          Cert.Loss.bce (x0 (ix4 b 0 h w)) (x1 (ix4 b 0 h w))
            * Cert.Loss.wgt (band (mask fun h w => x1 (ix4 b 0 h w)) h.val w.val) := by
  have e39 : k0_pay39 (k0_pay18 x0 x1)
        (k0_pay30 (k0_pay25 (k0_pay17 x1)) (k0_pay26 (k0_pay17 x1)) (k0_pay27 (k0_pay17 x1)) k0_pay28 k0_pay29)
        (k0_pay34 (k0_pay25 (k0_pay17 x1)) (k0_pay31 (k0_pay25 (k0_pay17 x1))) k0_pay32 k0_pay33)
        (k0_pay35 (k0_pay25 (k0_pay17 x1)) (k0_pay31 (k0_pay25 (k0_pay17 x1))) k0_pay32 k0_pay33)
        (k0_pay36 (k0_pay25 (k0_pay17 x1)) (k0_pay31 (k0_pay25 (k0_pay17 x1))) k0_pay32 k0_pay33)
        k0_pay37 k0_pay38
      = blockSum (mulf (k0_pay18 x0 x1)
          (addf (mulf (mulf (dilateV (dilateV (k0_pay25 (k0_pay17 x1))))
              (subf (broadcast S2x512x512 (Scalar.ofBits .f32 0x3F800000#32)) (erodeV (erodeV (k0_pay25 (k0_pay17 x1))))))
            (broadcast S2x512x512 (Scalar.ofBits .f32 0x40A00000#32)))
            (broadcast S2x512x512 (Scalar.ofBits .f32 0x3F800000#32)))) := rfl
  rw [e39]
  refine (blockSum_apply _ j).trans ?_
  refine Finset.sum_congr rfl fun w _ => Finset.sum_congr rfl fun h _ => Finset.sum_congr rfl fun b _ => ?_
  show k0_pay18 x0 x1 (ix3 b h w)
      * ((dilateV (dilateV (k0_pay25 (k0_pay17 x1))) (ix3 b h w)
            * (Cert.Loss.c1 - erodeV (erodeV (k0_pay25 (k0_pay17 x1))) (ix3 b h w))) * Cert.Loss.c5 + Cert.Loss.c1) = _
  rw [pay18_apply, dilate2_apply, erode2_apply, one_sub_ind, ind_mul]
  rfl

end Cert.KBlock

end
-- ==== Proof.KBlockRead.lean ====
/-
  A window's block is two images of the batch.

  The kernel walks 32 grid points; at point `t` each of its two input windows holds the block of two consecutive
  images `2t` and `2t + 1` of its [64,1,512,512] array: entry (b, 0, h, w) of the block is entry (2t + b, 0, h, w) of
  the array.
-/
import proofs.«148036_j65008624992506_2_alg».proof.Proof.Gen.KernelIdeal.Frame.Runs
import proofs.«148036_j65008624992506_2_alg».proof.Proof.SumBridge
import Idealize.ShloMosaic.Lib.ValueIdx
import Idealize.ShloMosaic.Lib.Pipeline.Value

noncomputable section

namespace Cert.KernelIdeal.BlockRead

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- A grid point as a block number below 32. -/
def blockNo (t : Fin cfg0.N) : Fin 32 := ⟨t.val, Nat.lt_of_lt_of_eq t.isLt N_0⟩

/-- Window 0's index map sends point `t` to block (t, 0, 0, 0). -/
theorem index0 : ∀ t : Fin grid0.N, win0_0.index t 0 = t.val ∧ win0_0.index t 1 = 0 ∧ win0_0.index t 2 = 0
    ∧ win0_0.index t 3 = 0 := by decide +kernel

/-- Window 1's index map sends point `t` to block (t, 0, 0, 0). -/
theorem index1 : ∀ t : Fin grid0.N, win0_1.index t 0 = t.val ∧ win0_1.index t 1 = 0 ∧ win0_1.index t 2 = 0
    ∧ win0_1.index t 3 = 0 := by decide +kernel

/-- Window 0's block at point `t`, entry (b, 0, h, w): the logits at image `2t + b`. -/
theorem iblk0_apply (c : Dev nD) (t : Fin cfg0.N) (b : Fin 2) (h w : Fin 512) :
    (iblk m c 0 t : Vec F S2x1x512x512 .f32) (ix4 b 0 h w)
      = (m ((c : Thread nD τ).loc main_arg0) : Vec F S64x1x512x512 .f32) (ix4 (Cert.Loss.img (blockNo t) b) 0 h w) := by
  obtain ⟨h0, h1, h2, h3⟩ := index0 t
  unfold iblk
  rw [View.read_apply]
  show (m ((c : Thread nD τ).loc main_arg0) : Vec F S64x1x512x512 .f32) _ = _
  refine congrArg (m ((c : Thread nD τ).loc main_arg0) : Vec F S64x1x512x512 .f32) (funext fun a => Fin.ext ?_)
  match a with
  | ⟨0, _⟩ =>
    show win0_0.index t 0 * 2 + 1 * b.val = (Cert.Loss.img (blockNo t) b).val
    rw [h0, Cert.Loss.img_val]; show _ = b.val + 2 * t.val; omega
  | ⟨1, _⟩ => show win0_0.index t 1 * 1 + 1 * 0 = 0; rw [h1]
  | ⟨2, _⟩ => show win0_0.index t 2 * 512 + 1 * h.val = h.val; rw [h2]; omega
  | ⟨3, _⟩ => show win0_0.index t 3 * 512 + 1 * w.val = w.val; rw [h3]; omega

/-- Window 1's block at point `t`, entry (b, 0, h, w): the targets at image `2t + b`. -/
theorem iblk1_apply (c : Dev nD) (t : Fin cfg0.N) (b : Fin 2) (h w : Fin 512) :
    (iblk m c 1 t : Vec F S2x1x512x512 .f32) (ix4 b 0 h w)
      = (m ((c : Thread nD τ).loc main_arg1) : Vec F S64x1x512x512 .f32) (ix4 (Cert.Loss.img (blockNo t) b) 0 h w) := by
  obtain ⟨h0, h1, h2, h3⟩ := index1 t
  unfold iblk
  rw [View.read_apply]
  show (m ((c : Thread nD τ).loc main_arg1) : Vec F S64x1x512x512 .f32) _ = _
  refine congrArg (m ((c : Thread nD τ).loc main_arg1) : Vec F S64x1x512x512 .f32) (funext fun a => Fin.ext ?_)
  match a with
  | ⟨0, _⟩ =>
    show win0_1.index t 0 * 2 + 1 * b.val = (Cert.Loss.img (blockNo t) b).val
    rw [h0, Cert.Loss.img_val]; show _ = b.val + 2 * t.val; omega
  | ⟨1, _⟩ => show win0_1.index t 1 * 1 + 1 * 0 = 0; rw [h1]
  | ⟨2, _⟩ => show win0_1.index t 2 * 512 + 1 * h.val = h.val; rw [h2]; omega
  | ⟨3, _⟩ => show win0_1.index t 3 * 512 + 1 * w.val = w.val; rw [h3]; omega

/-- The block number of a point is the point. -/
theorem blockNo_val (t : Fin cfg0.N) : (blockNo t).val = t.val := rfl

end Cert.KernelIdeal.BlockRead

end
-- ==== Proof.KValue.lean ====
/-
  The kernel's result is the loss.

  A grid point's five scalars are the block sums of the five summands over the point's two images (the block read of
  the window, and one block's arithmetic); an accumulator's entry after a core's last step is therefore the sum over
  the core's sixteen blocks; the result array holds these in its entries (q, r, 0); the two cores' entries add up to
  the whole-batch totals; and the scalar tail of the totals is the loss.  Finiteness of the inputs enters through the
  focal term alone.
-/
import proofs.«148036_j65008624992506_2_alg».proof.Proof.KRun
import proofs.«148036_j65008624992506_2_alg».proof.Proof.KOut
import proofs.«148036_j65008624992506_2_alg».proof.Proof.KBlockValue
import proofs.«148036_j65008624992506_2_alg».proof.Proof.KBlockRead

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Pieces Cert.KernelIdeal.Accum Cert.KernelIdeal.KRun
open Cert.KernelIdeal.KOut Cert.KernelIdeal.BlockRead Cert.Loss

variable (m : (ℓ : Loc nD τ sig) → Buf (Elt Ideal) ℓ)

/-- The two argument arrays by coordinates: image, row, column. -/
def Xc (c : Dev nD) : Fin 64 → Fin 512 → Fin 512 → R :=
  fun n h w => (m ((c : Thread nD τ).loc main_arg0) : Vec Ideal S64x1x512x512 .f32) (ix4 n 0 h w)
def Tc (c : Dev nD) : Fin 64 → Fin 512 → Fin 512 → R :=
  fun n h w => (m ((c : Thread nD τ).loc main_arg1) : Vec Ideal S64x1x512x512 .f32) (ix4 n 0 h w)

/-- A block of a real array is real. -/
theorem real_blk0 (c : Dev nD) (hx : ∀ i, ∃ r : ℝ, (m ((c : Thread nD τ).loc main_arg0) : Vec Ideal S64x1x512x512 .f32) i = (r : EReal))
    (t : Fin cfg0.N) : ∀ i, ∃ r : ℝ, (iblk m c 0 t : Vec Ideal S2x1x512x512 .f32) i = (r : EReal) := by
  intro i
  obtain ⟨b, z, h, w, rfl⟩ : ∃ (b : Fin 2) (z : Fin 1) (h w : Fin 512), i = ix4 b z h w := ⟨i 0, i 1, i 2, i 3, eq_ix4 i⟩
  obtain rfl : z = 0 := Subsingleton.elim _ _
  rw [iblk0_apply]
  exact hx _

theorem real_blk1 (c : Dev nD) (ht : ∀ i, ∃ r : ℝ, (m ((c : Thread nD τ).loc main_arg1) : Vec Ideal S64x1x512x512 .f32) i = (r : EReal))
    (t : Fin cfg0.N) : ∀ i, ∃ r : ℝ, (iblk m c 1 t : Vec Ideal S2x1x512x512 .f32) i = (r : EReal) := by
  intro i
  obtain ⟨b, z, h, w, rfl⟩ : ∃ (b : Fin 2) (z : Fin 1) (h w : Fin 512), i = ix4 b z h w := ⟨i 0, i 1, i 2, i 3, eq_ix4 i⟩
  obtain rfl : z = 0 := Subsingleton.elim _ _
  rw [iblk1_apply]
  exact ht _

/-- The scalars of a grid point are the block sums of the five summands over the point's two images. -/
theorem scF_eq (c : Dev nD) (hx : ∀ i, ∃ r : ℝ, (m ((c : Thread nD τ).loc main_arg0) : Vec Ideal S64x1x512x512 .f32) i = (r : EReal))
    (ht : ∀ i, ∃ r : ℝ, (m ((c : Thread nD τ).loc main_arg1) : Vec Ideal S64x1x512x512 .f32) i = (r : EReal)) (n : ℕ) :
    scF m c n = blockSumN (tF (Xc m c) (Tc m c)) n := by
  have hN : cfg0.N = 32 := N_0
  unfold scF blockSumN
  by_cases h : n < 32
  · rw [dif_pos (show n < cfg0.N by omega), dif_pos h]
    unfold sF
    rw [Cert.KBlock.focal_block _ _ _ (real_blk0 m c hx _) (real_blk1 m c ht _)]
    unfold blockSum
    refine Finset.sum_congr rfl fun w _ => Finset.sum_congr rfl fun h' _ => Finset.sum_congr rfl fun b _ => ?_
    rw [iblk0_apply, iblk1_apply]
    rfl
  · rw [dif_neg (show ¬n < cfg0.N by omega), dif_neg h]

theorem scI_eq (c : Dev nD) (n : ℕ) : scI m c n = blockSumN (tI (Xc m c) (Tc m c)) n := by
  have hN : cfg0.N = 32 := N_0
  unfold scI blockSumN
  by_cases h : n < 32
  · rw [dif_pos (show n < cfg0.N by omega), dif_pos h]
    unfold sI one
    rw [Cert.KBlock.inter_block]
    unfold blockSum
    refine Finset.sum_congr rfl fun w _ => Finset.sum_congr rfl fun h' _ => Finset.sum_congr rfl fun b _ => ?_
    rw [iblk0_apply, iblk1_apply]
    rfl
  · rw [dif_neg (show ¬n < cfg0.N by omega), dif_neg h]

theorem scP_eq (c : Dev nD) (n : ℕ) : scP m c n = blockSumN (tP (Xc m c)) n := by
  have hN : cfg0.N = 32 := N_0
  unfold scP blockSumN
  by_cases h : n < 32
  · rw [dif_pos (show n < cfg0.N by omega), dif_pos h]
    unfold sP one
    rw [Cert.KBlock.psum_block]
    unfold blockSum
    refine Finset.sum_congr rfl fun w _ => Finset.sum_congr rfl fun h' _ => Finset.sum_congr rfl fun b _ => ?_
    rw [iblk0_apply]
    rfl
  · rw [dif_neg (show ¬n < cfg0.N by omega), dif_neg h]

theorem scT_eq (c : Dev nD) (n : ℕ) : scT m c n = blockSumN (Tc m c) n := by
  have hN : cfg0.N = 32 := N_0
  unfold scT blockSumN
  by_cases h : n < 32
  · rw [dif_pos (show n < cfg0.N by omega), dif_pos h]
    unfold sT
    rw [Cert.KBlock.tsum_block]
    unfold blockSum
    refine Finset.sum_congr rfl fun w _ => Finset.sum_congr rfl fun h' _ => Finset.sum_congr rfl fun b _ => ?_
    rw [iblk1_apply]
    rfl
  · rw [dif_neg (show ¬n < cfg0.N by omega), dif_neg h]

theorem scB_eq (c : Dev nD) (n : ℕ) : scB m c n = blockSumN (tB (Xc m c) (Tc m c)) n := by
  have hN : cfg0.N = 32 := N_0
  unfold scB blockSumN
  by_cases h : n < 32
  · rw [dif_pos (show n < cfg0.N by omega), dif_pos h]
    unfold sB
    rw [Cert.KBlock.bound_block]
    unfold blockSum
    refine Finset.sum_congr rfl fun w _ => Finset.sum_congr rfl fun h' _ => Finset.sum_congr rfl fun b _ => ?_
    unfold tB
    rw [iblk0_apply]
    congr 2
    · rw [iblk1_apply]; rfl
    · congr 2
      funext h'' w''
      rw [iblk1_apply]
      rfl
  · rw [dif_neg (show ¬n < cfg0.N by omega), dif_neg h]

/-- The result array after the run, as a [2, 8, 128] array of extended reals. -/
def outArr (c : Dev nD) : FVec Ideal S2x8x128 .f32 := (dats m 0 c).arrAt 2 cfg0.N

/-- Entry (q, r, 0) of the result array is the running sum of accumulator `r` after the last step of core `q`. -/
theorem entry_0 (c : Dev nD) (n : ℕ) (h : n + 1 < cfg0.N) (h1 : (n + 1) % 16 = 15) (q : Fin 2) (hq : q.val = (n + 1) / 16) :
    outArr m c (ix3 q 0 0) = acc (scF m c) (n + 1) :=
  (out_entry m c ⟨n + 1, h⟩ h1 0 q hq).trans ((tile_entry_0 m c n h h1).trans (accs_apply m c (n + 1) h (ix2 0 0)).1)

theorem entry_1 (c : Dev nD) (n : ℕ) (h : n + 1 < cfg0.N) (h1 : (n + 1) % 16 = 15) (q : Fin 2) (hq : q.val = (n + 1) / 16) :
    outArr m c (ix3 q 1 0) = acc (scI m c) (n + 1) :=
  (out_entry m c ⟨n + 1, h⟩ h1 1 q hq).trans ((tile_entry_1 m c n h h1).trans (accs_apply m c (n + 1) h (ix2 0 0)).2.1)

theorem entry_2 (c : Dev nD) (n : ℕ) (h : n + 1 < cfg0.N) (h1 : (n + 1) % 16 = 15) (q : Fin 2) (hq : q.val = (n + 1) / 16) :
    outArr m c (ix3 q 2 0) = acc (scP m c) (n + 1) :=
  (out_entry m c ⟨n + 1, h⟩ h1 2 q hq).trans ((tile_entry_2 m c n h h1).trans (accs_apply m c (n + 1) h (ix2 0 0)).2.2.1)

theorem entry_3 (c : Dev nD) (n : ℕ) (h : n + 1 < cfg0.N) (h1 : (n + 1) % 16 = 15) (q : Fin 2) (hq : q.val = (n + 1) / 16) :
    outArr m c (ix3 q 3 0) = acc (scT m c) (n + 1) :=
  (out_entry m c ⟨n + 1, h⟩ h1 3 q hq).trans ((tile_entry_3 m c n h h1).trans (accs_apply m c (n + 1) h (ix2 0 0)).2.2.2.1)

theorem entry_4 (c : Dev nD) (n : ℕ) (h : n + 1 < cfg0.N) (h1 : (n + 1) % 16 = 15) (q : Fin 2) (hq : q.val = (n + 1) / 16) :
    outArr m c (ix3 q 4 0) = acc (scB m c) (n + 1) :=
  (out_entry m c ⟨n + 1, h⟩ h1 4 q hq).trans ((tile_entry_4 m c n h h1).trans (accs_apply m c (n + 1) h (ix2 0 0)).2.2.2.2)

/-- The two cores' entries add up to the whole-batch totals. -/
theorem sum_0 (c : Dev nD) (hx : ∀ i, ∃ r : ℝ, (m ((c : Thread nD τ).loc main_arg0) : Vec Ideal S64x1x512x512 .f32) i = (r : EReal))
    (ht : ∀ i, ∃ r : ℝ, (m ((c : Thread nD τ).loc main_arg1) : Vec Ideal S64x1x512x512 .f32) i = (r : EReal)) :
    ∑ q : Fin 2, outArr m c (ix3 q 0 0) = total (tF (Xc m c) (Tc m c)) := by
  have hN : cfg0.N = 32 := N_0
  rw [← sum_acc_last, Fin.sum_univ_two, Fin.sum_univ_two,
    entry_0 m c 14 (by omega) (by decide) 0 (by decide), entry_0 m c 30 (by omega) (by decide) 1 (by decide),
    show scF m c = blockSumN (tF (Xc m c) (Tc m c)) from funext (scF_eq m c hx ht)]
  rfl

theorem sum_1 (c : Dev nD)  :
    ∑ q : Fin 2, outArr m c (ix3 q 1 0) = total (tI (Xc m c) (Tc m c)) := by
  have hN : cfg0.N = 32 := N_0
  rw [← sum_acc_last, Fin.sum_univ_two, Fin.sum_univ_two,
    entry_1 m c 14 (by omega) (by decide) 0 (by decide), entry_1 m c 30 (by omega) (by decide) 1 (by decide),
    show scI m c = blockSumN (tI (Xc m c) (Tc m c)) from funext (scI_eq m c )]
  rfl

theorem sum_2 (c : Dev nD)  :
    ∑ q : Fin 2, outArr m c (ix3 q 2 0) = total (tP (Xc m c)) := by
  have hN : cfg0.N = 32 := N_0
  rw [← sum_acc_last, Fin.sum_univ_two, Fin.sum_univ_two,
    entry_2 m c 14 (by omega) (by decide) 0 (by decide), entry_2 m c 30 (by omega) (by decide) 1 (by decide),
    show scP m c = blockSumN (tP (Xc m c)) from funext (scP_eq m c )]
  rfl

theorem sum_3 (c : Dev nD)  :
    ∑ q : Fin 2, outArr m c (ix3 q 3 0) = total (Tc m c) := by
  have hN : cfg0.N = 32 := N_0
  rw [← sum_acc_last, Fin.sum_univ_two, Fin.sum_univ_two,
    entry_3 m c 14 (by omega) (by decide) 0 (by decide), entry_3 m c 30 (by omega) (by decide) 1 (by decide),
    show scT m c = blockSumN (Tc m c) from funext (scT_eq m c )]
  rfl

theorem sum_4 (c : Dev nD)  :
    ∑ q : Fin 2, outArr m c (ix3 q 4 0) = total (tB (Xc m c) (Tc m c)) := by
  have hN : cfg0.N = 32 := N_0
  rw [← sum_acc_last, Fin.sum_univ_two, Fin.sum_univ_two,
    entry_4 m c 14 (by omega) (by decide) 0 (by decide), entry_4 m c 30 (by omega) (by decide) 1 (by decide),
    show scB m c = blockSumN (tB (Xc m c) (Tc m c)) from funext (scB_eq m c )]
  rfl

/-- The kernel's result on finite inputs: the loss of the two argument arrays. -/
theorem kernel_value (c : Dev nD) (hx : ∀ i, ∃ r : ℝ, (m ((c : Thread nD τ).loc main_arg0) : Vec Ideal S64x1x512x512 .f32) i = (r : EReal))
    (ht : ∀ i, ∃ r : ℝ, (m ((c : Thread nD τ).loc main_arg1) : Vec Ideal S64x1x512x512 .f32) i = (r : EReal)) :
    Cert.KTail.ktail (F := Ideal) ((dats m 0 c).arrAt 2 cfg0.N) = fun _ => loss (Xc m c) (Tc m c) := by
  funext i
  obtain rfl := eq_ix0 i
  show Cert.KTail.ktail (F := Ideal) (outArr m c) ix0 = _
  rw [Cert.KTail.ktail_apply, sum_0 m c hx ht, sum_1 m c, sum_2 m c, sum_3 m c, sum_4 m c]
  rfl

end Cert.KernelIdeal.KValue

end
-- ==== Proof.RefPad.lean ====
/-
  The padded bit array read at an index, and one erosion and one dilation by the cross read at an index.

  The reference pads a [64,1,512,512] array of bits by one unset entry on each side of the last two axes and
  combines five shifted windows of the padded array.  Here the array is described, image by image, by a grid
  `g : ℕ → ℕ → Bool` (entry (h, w) of image n is the bit of `g h w`); the padded array at row a and column b is
  then the bit of "1 ≤ a ≤ 512 and 1 ≤ b ≤ 512 and g (a − 1) (b − 1)".
-/
import proofs.«148036_j65008624992506_2_alg».proof.Proof.Gen.ReferenceIdeal.Read
import proofs.«148036_j65008624992506_2_alg».proof.Proof.Spec
import Idealize.ShloMosaic.Lib.KernelVsHost

noncomputable section

namespace Cert.RefValue

open Cert.ReferenceIdeal Idealize.ShloMosaic Idealize.ShloMosaic.ValueIdx

/-- The padded array at an index of row `a` and column `b`, for an operand that is the grid `g` on image `n`. -/
theorem pad_grid (B : S64x1x512x512.Idx → BitVec 1) (v : S_.Idx → BitVec 1) (hv : ∀ i, v i = 0#1)
    (hp : S64x1x512x512.Pads (![0, 0, 1, 1] : Fin 4 → Nat) ![0, 0, 1, 1] ![0, 0, 0, 0] S64x1x514x514)
    (hu : 0 < S_.numel) (n : Fin 64) (g : ℕ → ℕ → Bool)
    (hB : ∀ h w : Fin 512, B (ix4 n 0 h w) = BitVec.ofBool (g h.val w.val))
    (j : S64x1x514x514.Idx) (hj : (j 0).val = n.val) (a b : ℕ) (ha : (j 2).val = a) (hb : (j 3).val = b) :
    pad S64x1x514x514 ![0, 0, 1, 1] ![0, 0, 1, 1] ![0, 0, 0, 0] B v hp hu j
      = BitVec.ofBool (decide (1 ≤ a ∧ a ≤ 512 ∧ 1 ≤ b ∧ b ≤ 512) && g (a - 1) (b - 1)) := by
  by_cases hin : 1 ≤ a ∧ a ≤ 512 ∧ 1 ≤ b ∧ b ≤ 512
  · obtain ⟨h1, h2, h3, h4⟩ := hin
    have hj1 : (j 1).val < 1 := (j 1).isLt
    rw [pad_apply_of_inside _ _ _ B v hp hu j (ix4 n 0 ⟨a - 1, by omega⟩ ⟨b - 1, by omega⟩) (fun c => by
      match c with
      | ⟨0, _⟩ => show (j 0).val = 0 + n.val * (0 + 1); omega
      | ⟨1, _⟩ => show (j 1).val = 0 + 0 * (0 + 1); omega
      | ⟨2, _⟩ => show (j 2).val = 1 + (a - 1) * (0 + 1); omega
      | ⟨3, _⟩ => show (j 3).val = 1 + (b - 1) * (0 + 1); omega)]
    rw [hB]
    simp [h1, h2, h3, h4]
  · have hz : pad S64x1x514x514 ![0, 0, 1, 1] ![0, 0, 1, 1] ![0, 0, 0, 0] B v hp hu j = 0#1 := by
      by_cases hrow : 1 ≤ a ∧ a ≤ 512
      · rw [pad_apply_of_not_inside _ _ _ B v hp hu j 3 (by
          show ¬(1 ≤ (j 3).val ∧ ((j 3).val - 1) % (0 + 1) = 0 ∧ ((j 3).val - 1) / (0 + 1) < 512)
          rw [hb]; omega)]
        exact hv _
      · rw [pad_apply_of_not_inside _ _ _ B v hp hu j 2 (by
          show ¬(1 ≤ (j 2).val ∧ ((j 2).val - 1) % (0 + 1) = 0 ∧ ((j 2).val - 1) / (0 + 1) < 512)
          rw [ha]; omega)]
        exact hv _
    rw [hz]
    simp [hin]

section Stencil

variable (B : S64x1x512x512.Idx → BitVec 1) (v : S_.Idx → BitVec 1) (hv : ∀ i, v i = 0#1)
  (hp : S64x1x512x512.Pads (![0, 0, 1, 1] : Fin 4 → Nat) ![0, 0, 1, 1] ![0, 0, 0, 0] S64x1x514x514)
  (hu : 0 < S_.numel) (n : Fin 64) (g : ℕ → ℕ → Bool)
  (hB : ∀ h w : Fin 512, B (ix4 n 0 h w) = BitVec.ofBool (g h.val w.val))

include hv hB

/-- The centre window: the entry itself. -/
theorem pad_centre (h w : Fin 512) (j : S64x1x514x514.Idx) (hj : (j 0).val = n.val)
    (ha : (j 2).val = 1 + h.val) (hb : (j 3).val = 1 + w.val) :
    pad S64x1x514x514 ![0, 0, 1, 1] ![0, 0, 1, 1] ![0, 0, 0, 0] B v hp hu j = BitVec.ofBool (g h.val w.val) := by
  have hh := h.isLt
  have hw := w.isLt
  rw [pad_grid B v hv hp hu n g hB j hj _ _ ha hb, Nat.add_sub_cancel_left, Nat.add_sub_cancel_left,
    decide_eq_true (by omega : 1 ≤ 1 + h.val ∧ 1 + h.val ≤ 512 ∧ 1 ≤ 1 + w.val ∧ 1 + w.val ≤ 512), Bool.true_and]

/-- The window one row up: the entry above, unset in the first row. -/
theorem pad_up (h w : Fin 512) (j : S64x1x514x514.Idx) (hj : (j 0).val = n.val)
    (ha : (j 2).val = h.val) (hb : (j 3).val = 1 + w.val) :
    pad S64x1x514x514 ![0, 0, 1, 1] ![0, 0, 1, 1] ![0, 0, 0, 0] B v hp hu j
      = BitVec.ofBool (decide (0 < h.val) && g (h.val - 1) w.val) := by
  have hh := h.isLt
  have hw := w.isLt
  rw [pad_grid B v hv hp hu n g hB j hj _ _ ha hb, Nat.add_sub_cancel_left,
    decide_eq_decide.mpr (by omega : (1 ≤ h.val ∧ h.val ≤ 512 ∧ 1 ≤ 1 + w.val ∧ 1 + w.val ≤ 512) ↔ 0 < h.val)]

/-- The window one row down: the entry below, unset in the last row. -/
theorem pad_down (h w : Fin 512) (j : S64x1x514x514.Idx) (hj : (j 0).val = n.val)
    (ha : (j 2).val = 2 + h.val) (hb : (j 3).val = 1 + w.val) :
    pad S64x1x514x514 ![0, 0, 1, 1] ![0, 0, 1, 1] ![0, 0, 0, 0] B v hp hu j
      = BitVec.ofBool (decide (h.val < 511) && g (h.val + 1) w.val) := by
  have hh := h.isLt
  have hw := w.isLt
  rw [pad_grid B v hv hp hu n g hB j hj _ _ ha hb, Nat.add_sub_cancel_left,
    (by omega : 2 + h.val - 1 = h.val + 1),
    decide_eq_decide.mpr (by omega : (1 ≤ 2 + h.val ∧ 2 + h.val ≤ 512 ∧ 1 ≤ 1 + w.val ∧ 1 + w.val ≤ 512) ↔ h.val < 511)]

/-- The window one column left: the entry to the left, unset in the first column. -/
theorem pad_left (h w : Fin 512) (j : S64x1x514x514.Idx) (hj : (j 0).val = n.val)
    (ha : (j 2).val = 1 + h.val) (hb : (j 3).val = w.val) :
    pad S64x1x514x514 ![0, 0, 1, 1] ![0, 0, 1, 1] ![0, 0, 0, 0] B v hp hu j
      = BitVec.ofBool (decide (0 < w.val) && g h.val (w.val - 1)) := by
  have hh := h.isLt
  have hw := w.isLt
  rw [pad_grid B v hv hp hu n g hB j hj _ _ ha hb, Nat.add_sub_cancel_left,
    decide_eq_decide.mpr (by omega : (1 ≤ 1 + h.val ∧ 1 + h.val ≤ 512 ∧ 1 ≤ w.val ∧ w.val ≤ 512) ↔ 0 < w.val)]

/-- The window one column right: the entry to the right, unset in the last column. -/
theorem pad_right (h w : Fin 512) (j : S64x1x514x514.Idx) (hj : (j 0).val = n.val)
    (ha : (j 2).val = 1 + h.val) (hb : (j 3).val = 2 + w.val) :
    pad S64x1x514x514 ![0, 0, 1, 1] ![0, 0, 1, 1] ![0, 0, 0, 0] B v hp hu j
      = BitVec.ofBool (decide (w.val < 511) && g h.val (w.val + 1)) := by
  have hh := h.isLt
  have hw := w.isLt
  rw [pad_grid B v hv hp hu n g hB j hj _ _ ha hb, Nat.add_sub_cancel_left,
    (by omega : 2 + w.val - 1 = w.val + 1),
    decide_eq_decide.mpr (by omega : (1 ≤ 1 + h.val ∧ 1 + h.val ≤ 512 ∧ 1 ≤ 2 + w.val ∧ 2 + w.val ≤ 512) ↔ w.val < 511)]

/-- One erosion: the conjunction of the five windows of the padded array, combined centre, up, down, left, right, is
    the bit of the eroded grid. -/
theorem erode_read (h w : Fin 512) (jC jU jD jL jR : S64x1x514x514.Idx)
    (hC0 : (jC 0).val = n.val) (hC2 : (jC 2).val = 1 + h.val) (hC3 : (jC 3).val = 1 + w.val)
    (hU0 : (jU 0).val = n.val) (hU2 : (jU 2).val = h.val) (hU3 : (jU 3).val = 1 + w.val)
    (hD0 : (jD 0).val = n.val) (hD2 : (jD 2).val = 2 + h.val) (hD3 : (jD 3).val = 1 + w.val)
    (hL0 : (jL 0).val = n.val) (hL2 : (jL 2).val = 1 + h.val) (hL3 : (jL 3).val = w.val)
    (hR0 : (jR 0).val = n.val) (hR2 : (jR 2).val = 1 + h.val) (hR3 : (jR 3).val = 2 + w.val) :
    IntOp.andi (IntOp.andi (IntOp.andi (IntOp.andi
      (pad S64x1x514x514 ![0, 0, 1, 1] ![0, 0, 1, 1] ![0, 0, 0, 0] B v hp hu jC)
      (pad S64x1x514x514 ![0, 0, 1, 1] ![0, 0, 1, 1] ![0, 0, 0, 0] B v hp hu jU))
      (pad S64x1x514x514 ![0, 0, 1, 1] ![0, 0, 1, 1] ![0, 0, 0, 0] B v hp hu jD))
      (pad S64x1x514x514 ![0, 0, 1, 1] ![0, 0, 1, 1] ![0, 0, 0, 0] B v hp hu jL))
      (pad S64x1x514x514 ![0, 0, 1, 1] ![0, 0, 1, 1] ![0, 0, 0, 0] B v hp hu jR)
      = BitVec.ofBool (Cert.Loss.erode g h.val w.val) := by
  rw [pad_centre B v hv hp hu n g hB h w jC hC0 hC2 hC3, pad_up B v hv hp hu n g hB h w jU hU0 hU2 hU3,
    pad_down B v hv hp hu n g hB h w jD hD0 hD2 hD3, pad_left B v hv hp hu n g hB h w jL hL0 hL2 hL3,
    pad_right B v hv hp hu n g hB h w jR hR0 hR2 hR3]
  unfold IntOp.andi Cert.Loss.erode
  rw [BitVec.ofBool_and_ofBool, BitVec.ofBool_and_ofBool, BitVec.ofBool_and_ofBool, BitVec.ofBool_and_ofBool]

/-- One dilation: the disjunction of the five windows is the bit of the dilated grid. -/
theorem dilate_read (h w : Fin 512) (jC jU jD jL jR : S64x1x514x514.Idx)
    (hC0 : (jC 0).val = n.val) (hC2 : (jC 2).val = 1 + h.val) (hC3 : (jC 3).val = 1 + w.val)
    (hU0 : (jU 0).val = n.val) (hU2 : (jU 2).val = h.val) (hU3 : (jU 3).val = 1 + w.val)
    (hD0 : (jD 0).val = n.val) (hD2 : (jD 2).val = 2 + h.val) (hD3 : (jD 3).val = 1 + w.val)
    (hL0 : (jL 0).val = n.val) (hL2 : (jL 2).val = 1 + h.val) (hL3 : (jL 3).val = w.val)
    (hR0 : (jR 0).val = n.val) (hR2 : (jR 2).val = 1 + h.val) (hR3 : (jR 3).val = 2 + w.val) :
    IntOp.ori (IntOp.ori (IntOp.ori (IntOp.ori
      (pad S64x1x514x514 ![0, 0, 1, 1] ![0, 0, 1, 1] ![0, 0, 0, 0] B v hp hu jC)
      (pad S64x1x514x514 ![0, 0, 1, 1] ![0, 0, 1, 1] ![0, 0, 0, 0] B v hp hu jU))
      (pad S64x1x514x514 ![0, 0, 1, 1] ![0, 0, 1, 1] ![0, 0, 0, 0] B v hp hu jD))
      (pad S64x1x514x514 ![0, 0, 1, 1] ![0, 0, 1, 1] ![0, 0, 0, 0] B v hp hu jL))
      (pad S64x1x514x514 ![0, 0, 1, 1] ![0, 0, 1, 1] ![0, 0, 0, 0] B v hp hu jR)
      = BitVec.ofBool (Cert.Loss.dilate g h.val w.val) := by
  rw [pad_centre B v hv hp hu n g hB h w jC hC0 hC2 hC3, pad_up B v hv hp hu n g hB h w jU hU0 hU2 hU3,
    pad_down B v hv hp hu n g hB h w jD hD0 hD2 hD3, pad_left B v hv hp hu n g hB h w jL hL0 hL2 hL3,
    pad_right B v hv hp hu n g hB h w jR hR0 hR2 hR3]
  unfold IntOp.ori Cert.Loss.dilate
  rw [BitVec.ofBool_or_ofBool, BitVec.ofBool_or_ofBool, BitVec.ofBool_or_ofBool, BitVec.ofBool_or_ofBool]

end Stencil

end Cert.RefValue

end
-- ==== Proof.RefStencil.lean ====
/-
  The reference's bit arrays read at an index: the mask, its two erosions, its two dilations and the band, each the bit
  of the specification's grid function on the mask of the image.
-/
import proofs.«148036_j65008624992506_2_alg».proof.Proof.RefPad

noncomputable section

namespace Cert.RefValue

open Cert.ReferenceIdeal Cert.ReferenceIdeal.Read Idealize.ShloMosaic Idealize.ShloMosaic.ValueIdx

/-- The mask of image `n` as a grid: the target exceeds one half. -/
abbrev maskOf (T : FVec Ideal S64x1x512x512 .f32) (n : Fin 64) : ℕ → ℕ → Bool :=
  Cert.Loss.mask (fun h w => T (ix4 n 0 h w))

/-- The comparison with one half is the mask's bit. -/
theorem v37_read (T : FVec Ideal S64x1x512x512 .f32) (n : Fin 64) (h w : Fin 512) :
    val_main_v37 (F := Ideal) T (ix4 n 0 h w) = BitVec.ofBool (maskOf T n h.val w.val) := by
  rw [val_main_v37_apply, val_main_v36_apply, val_main_cst_14_apply]
  unfold maskOf Cert.Loss.mask
  rw [dif_pos ⟨h.isLt, w.isLt⟩]
  rfl

/-- The first erosion. -/
theorem v47_read (T : FVec Ideal S64x1x512x512 .f32) (n : Fin 64) (h w : Fin 512) :
    val_main_v47 (F := Ideal) T (ix4 n 0 h w) = BitVec.ofBool (Cert.Loss.erode (maskOf T n) h.val w.val) := by
  rw [val_main_v47_apply, val_main_v46_apply, val_main_v45_apply, val_main_v44_apply, val_main_v39_apply,
    val_main_v40_apply, val_main_v41_apply, val_main_v42_apply, val_main_v43_apply]
  unfold val_main_v38
  exact erode_read (val_main_v37 (F := Ideal) T) (val_main_c (F := Ideal)) (fun _ => rfl) _ _ n (maskOf T n)
    (v37_read T n) h w _ _ _ _ _ rfl rfl rfl rfl rfl rfl rfl rfl rfl rfl rfl rfl rfl rfl rfl

/-- The second erosion. -/
theorem v57_read (T : FVec Ideal S64x1x512x512 .f32) (n : Fin 64) (h w : Fin 512) :
    val_main_v57 (F := Ideal) T (ix4 n 0 h w)
      = BitVec.ofBool (Cert.Loss.erode (Cert.Loss.erode (maskOf T n)) h.val w.val) := by
  rw [val_main_v57_apply, val_main_v56_apply, val_main_v55_apply, val_main_v54_apply, val_main_v49_apply,
    val_main_v50_apply, val_main_v51_apply, val_main_v52_apply, val_main_v53_apply]
  unfold val_main_v48
  exact erode_read (val_main_v47 (F := Ideal) T) (val_main_c_15 (F := Ideal)) (fun _ => rfl) _ _ n
    (Cert.Loss.erode (maskOf T n)) (v47_read T n) h w _ _ _ _ _ rfl rfl rfl rfl rfl rfl rfl rfl rfl rfl rfl rfl rfl rfl rfl

/-- The first dilation. -/
theorem v67_read (T : FVec Ideal S64x1x512x512 .f32) (n : Fin 64) (h w : Fin 512) :
    val_main_v67 (F := Ideal) T (ix4 n 0 h w) = BitVec.ofBool (Cert.Loss.dilate (maskOf T n) h.val w.val) := by
  rw [val_main_v67_apply, val_main_v66_apply, val_main_v65_apply, val_main_v64_apply, val_main_v59_apply,
    val_main_v60_apply, val_main_v61_apply, val_main_v62_apply, val_main_v63_apply]
  unfold val_main_v58
  exact dilate_read (val_main_v37 (F := Ideal) T) (val_main_c_16 (F := Ideal)) (fun _ => rfl) _ _ n (maskOf T n)
    (v37_read T n) h w _ _ _ _ _ rfl rfl rfl rfl rfl rfl rfl rfl rfl rfl rfl rfl rfl rfl rfl

/-- The second dilation. -/
theorem v77_read (T : FVec Ideal S64x1x512x512 .f32) (n : Fin 64) (h w : Fin 512) :
    val_main_v77 (F := Ideal) T (ix4 n 0 h w)
      = BitVec.ofBool (Cert.Loss.dilate (Cert.Loss.dilate (maskOf T n)) h.val w.val) := by
  rw [val_main_v77_apply, val_main_v76_apply, val_main_v75_apply, val_main_v74_apply, val_main_v69_apply,
    val_main_v70_apply, val_main_v71_apply, val_main_v72_apply, val_main_v73_apply]
  unfold val_main_v68
  exact dilate_read (val_main_v67 (F := Ideal) T) (val_main_c_17 (F := Ideal)) (fun _ => rfl) _ _ n
    (Cert.Loss.dilate (maskOf T n)) (v67_read T n) h w _ _ _ _ _ rfl rfl rfl rfl rfl rfl rfl rfl rfl rfl rfl rfl rfl rfl rfl

/-- The band: in the twice-dilated mask and not in the twice-eroded one. -/
theorem v79_read (T : FVec Ideal S64x1x512x512 .f32) (n : Fin 64) (h w : Fin 512) :
    val_main_v79 (F := Ideal) T (ix4 n 0 h w) = BitVec.ofBool (Cert.Loss.band (maskOf T n) h.val w.val) := by
  rw [val_main_v79_apply, val_main_v78_apply, v77_read, v57_read]
  unfold IntOp.andi Cert.Loss.band
  rw [BitVec.not_ofBool, BitVec.ofBool_and_ofBool]

/-- A bit converted to a float is one or zero. -/
theorem uitofp_ofBool (b : Bool) : FloatOps.uitofp (F := Ideal) .f32 (BitVec.ofBool b) = Cert.Loss.ind b := by
  cases b
  · show (((0 : ℕ) : ℝ) : EReal) = 0
    simp
  · show (((1 : ℕ) : ℝ) : EReal) = 1
    simp

/-- The band's indicator as a float. -/
theorem v80_read (T : FVec Ideal S64x1x512x512 .f32) (n : Fin 64) (h w : Fin 512) :
    val_main_v80 (F := Ideal) T (ix4 n 0 h w) = Cert.Loss.ind (Cert.Loss.band (maskOf T n) h.val w.val) := by
  rw [val_main_v80_apply, v79_read, uitofp_ofBool]

end Cert.RefValue

end
-- ==== Proof.RefValue.lean ====
/-
  The reference's result is the loss of the specification.

  Entry by entry the reference's float arrays are the specification's per-entry functions: the cross-entropy term,
  the focal term, the logistic function and the boundary weight of the band bit.  Each of the five whole-array sums is
  the initial value zero plus the sum over every index, which is the total over coordinates; the scalar tail is the
  specification's combination of the five sums.
-/
import proofs.«148036_j65008624992506_2_alg».proof.Proof.RefStencil

noncomputable section

namespace Cert.RefValue

open Cert.ReferenceIdeal Cert.ReferenceIdeal.Read Idealize.ShloMosaic Idealize.ShloMosaic.ValueIdx

/-- The cross-entropy term of one entry. -/
theorem v8_read (X T : FVec Ideal S64x1x512x512 .f32) (i : S64x1x512x512.Idx) :
    val_main_v8 (F := Ideal) X T i = Cert.Loss.bce (X i) (T i) := by
  rw [val_main_v8_apply, val_main_v3_apply, val_main_v1_apply, val_main_v0_apply, val_main_cst_apply,
    val_main_v2_apply, val_main_v7_apply, val_main_v6_apply, val_main_v5_apply, val_main_v4_apply]
  simp only [Ideal.addf_def, Ideal.subf_def, Ideal.mulf_def, Ideal.maximumf_def, Ideal.hostUnary_log1p_def,
    Ideal.hostUnary_exp_def, Ideal.hostNegf_def, Ideal.negf_def, Ideal.hostAbsf_def, Ideal.ofBits_def]
  rfl

/-- The focal term of one entry. -/
theorem v17_read (X T : FVec Ideal S64x1x512x512 .f32) (i : S64x1x512x512.Idx) :
    val_main_v17 (F := Ideal) X T i = Cert.Loss.focal (X i) (T i) := by
  rw [val_main_v17_apply, val_main_v16_apply, val_main_v15_apply, val_main_cst_2_apply, val_main_v14_apply,
    val_main_v13_apply, val_main_cst_1_apply, val_main_v12_apply, val_main_v11_apply, val_main_cst_0_apply,
    val_main_v10_apply, val_main_v9_apply, v8_read]
  simp only [Ideal.subf_def, Ideal.mulf_def, Ideal.hostUnary_exp_def, Ideal.hostNegf_def, Ideal.negf_def,
    Ideal.hostPowf_def, Ideal.ofBits_def]
  rfl

/-- The logistic function of one entry. -/
theorem v25_read (X : FVec Ideal S64x1x512x512 .f32) (i : S64x1x512x512.Idx) :
    val_main_v25 (F := Ideal) X i = Cert.Loss.sig (X i) := by
  rw [val_main_v25_apply, val_main_v24_apply, val_main_cst_6_apply, val_main_v23_apply, val_main_v22_apply,
    val_main_cst_5_apply, val_main_v21_apply, val_main_v20_apply]
  simp only [Ideal.addf_def, Ideal.hostUnary_exp_def, Ideal.hostNegf_def, Ideal.negf_def, Ideal.hostDivf_def,
    Ideal.ofBits_def]
  rfl

/-- The intersection summand of one entry. -/
theorem v26_read (X T : FVec Ideal S64x1x512x512 .f32) (i : S64x1x512x512.Idx) :
    val_main_v26 (F := Ideal) X T i = Cert.Loss.sig (X i) * T i := by
  rw [val_main_v26_apply, v25_read]
  rfl

/-- The boundary weight of one entry. -/
theorem v84_read (T : FVec Ideal S64x1x512x512 .f32) (n : Fin 64) (h w : Fin 512) :
    val_main_v84 (F := Ideal) T (ix4 n 0 h w) = Cert.Loss.wgt (Cert.Loss.band (maskOf T n) h.val w.val) := by
  rw [val_main_v84_apply, val_main_v83_apply, val_main_cst_19_apply, val_main_v82_apply, val_main_v81_apply,
    val_main_cst_18_apply, v80_read]
  simp only [Ideal.addf_def, Ideal.mulf_def, Ideal.ofBits_def]
  rfl

/-- The weighted cross-entropy summand of one entry. -/
theorem v85_read (X T : FVec Ideal S64x1x512x512 .f32) (n : Fin 64) (h w : Fin 512) :
    val_main_v85 (F := Ideal) X T (ix4 n 0 h w)
      = Cert.Loss.bce (X (ix4 n 0 h w)) (T (ix4 n 0 h w)) * Cert.Loss.wgt (Cert.Loss.band (maskOf T n) h.val w.val) := by
  rw [val_main_v85_apply, v8_read, v84_read]
  rfl

section Sums

variable (X T : FVec Ideal S64x1x512x512 .f32)

/-- The logits and the targets by coordinates. -/
abbrev byCoord (A : FVec Ideal S64x1x512x512 .f32) : Fin 64 → Fin 512 → Fin 512 → Cert.Loss.R :=
  fun n h w => A (ix4 n 0 h w)

/-- The sum of the focal terms. -/
theorem v18_read (i : S_.Idx) :
    val_main_v18 (F := Ideal) X T i = Cert.Loss.total (Cert.Loss.tF (byCoord X) (byCoord T)) := by
  rw [val_main_v18_apply, val_main_cst_3_apply, Ideal.ofBits_def, Ideal.ofBits_zero_f32, zero_add, Cert.Loss.sum_batch]
  exact congrArg Cert.Loss.total (funext fun n => funext fun h => funext fun w => v17_read X T _)

/-- The sum of the intersection summands. -/
theorem v27_read (i : S_.Idx) :
    val_main_v27 (F := Ideal) X T i = Cert.Loss.total (Cert.Loss.tI (byCoord X) (byCoord T)) := by
  rw [val_main_v27_apply, val_main_cst_7_apply, Ideal.ofBits_def, Ideal.ofBits_zero_f32, zero_add, Cert.Loss.sum_batch]
  exact congrArg Cert.Loss.total (funext fun n => funext fun h => funext fun w => v26_read X T _)

/-- The sum of the logistic values. -/
theorem v30_read (i : S_.Idx) :
    val_main_v30 (F := Ideal) X i = Cert.Loss.total (Cert.Loss.tP (byCoord X)) := by
  rw [val_main_v30_apply, val_main_cst_10_apply, Ideal.ofBits_def, Ideal.ofBits_zero_f32, zero_add, Cert.Loss.sum_batch]
  exact congrArg Cert.Loss.total (funext fun n => funext fun h => funext fun w => v25_read X _)

/-- The sum of the targets. -/
theorem v31_read (i : S_.Idx) :
    val_main_v31 (F := Ideal) T i = Cert.Loss.total (byCoord T) := by
  rw [val_main_v31_apply, val_main_cst_11_apply, Ideal.ofBits_def, Ideal.ofBits_zero_f32, zero_add, Cert.Loss.sum_batch]

/-- The sum of the weighted cross-entropy summands. -/
theorem v86_read (i : S_.Idx) :
    val_main_v86 (F := Ideal) X T i = Cert.Loss.total (Cert.Loss.tB (byCoord X) (byCoord T)) := by
  rw [val_main_v86_apply, val_main_cst_20_apply, Ideal.ofBits_def, Ideal.ofBits_zero_f32, zero_add, Cert.Loss.sum_batch]
  exact congrArg Cert.Loss.total (funext fun n => funext fun h => funext fun w => v85_read X T n h w)

end Sums

/-- The reference's result is the specification's loss of the logits and the targets read by coordinates. -/
theorem ref_value (X T : FVec Ideal S64x1x512x512 .f32) :
    val_main_v92 (F := Ideal) X T ix0
      = Cert.Loss.loss (fun n h w => X (ix4 n 0 h w)) (fun n h w => T (ix4 n 0 h w)) := by
  rw [val_main_v92_apply, val_main_v90_apply, val_main_v88_apply, val_main_cst_22_apply, val_main_v19_apply,
    val_main_cst_4_apply, v18_read, val_main_v89_apply, val_main_cst_23_apply, val_main_v35_apply,
    val_main_cst_13_apply, val_main_v34_apply, val_main_v29_apply, val_main_v28_apply, val_main_cst_8_apply,
    v27_read, val_main_cst_9_apply, val_main_v33_apply, val_main_v32_apply, v30_read, v31_read,
    val_main_cst_12_apply, val_main_v91_apply, val_main_cst_24_apply, val_main_v87_apply, v86_read,
    val_main_cst_21_apply]
  simp only [Ideal.addf_def, Ideal.subf_def, Ideal.mulf_def, Ideal.hostDivf_def, Ideal.ofBits_def]
  rfl

end Cert.RefValue

end
-- ==== Proof.LibIdealFinite.lean ====
/-
  Real-valuedness of extended reals and its closure under the exact operations.

  An extended real is REAL when it is neither infinity. The exact operations keep real arguments real: sums, finite
  sums, differences, products, maxima, a quotient by a nonzero real, the reciprocal square root of a positive real.
  This is what lets ring identities (distributivity, cancelling) be used on intermediate values of a computation whose
  inputs are finite: distributivity fails at the infinities, so each intermediate value is first shown real.
  `IsReal.sum_of_forall` and `exists_real_fun` turn a family of real extended reals into the embedding of a real family.
-/
import Idealize.ShloMosaic.PureOps.Ideal

noncomputable section

namespace LibIdealFinite

open Idealize.ShloMosaic

/-- An extended real that is a real number. -/
def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy; exact ⟨Max.max a b, (EReal.coe_strictMono.monotone.map_max (a := a) (b := b)).symm⟩

theorem sum {ι : Type*} (s : Finset ι) (f : ι → EReal) (h : ∀ i ∈ s, IsReal (f i)) : IsReal (∑ i ∈ s, f i) :=
  Finset.sum_induction f IsReal (fun _ _ => add) zero h

/-- A quotient of a real by a nonzero real is real. -/
theorem div_real {x : EReal} (hx : IsReal x) {n : ℝ} (hn : n ≠ 0) : IsReal (Ideal.div x (n : EReal)) := by
  obtain ⟨a, rfl⟩ := hx
  exact ⟨a / n, by rw [Ideal.div_coe hn, ← EReal.coe_mul, mul_one_div]⟩

/-- The reciprocal square root of a positive real is real. -/
theorem rsqrt_pos {x : EReal} (hx : IsReal x) (hpos : 0 < x) : IsReal (Ideal.rsqrt x) := by
  obtain ⟨r, rfl⟩ := hx
  have hr : 0 < r := by exact_mod_cast hpos
  exact ⟨(Real.sqrt r)⁻¹, by rw [Ideal.rsqrt_coe, if_neg (not_lt.mpr hr.le), if_neg hr.ne']⟩

/-- The reciprocal square root of a positive real is positive. -/
theorem rsqrt_pos_pos {r : ℝ} (hr : 0 < r) : (0 : EReal) < Ideal.rsqrt (r : EReal) := by
  rw [Ideal.rsqrt_coe, if_neg (not_lt.mpr hr.le), if_neg hr.ne']
  exact_mod_cast inv_pos.mpr (Real.sqrt_pos.mpr hr)

end IsReal

/-- The f32 pattern of +∞ denotes the top element. -/
theorem ofBits_inf : Ideal.ofBits .f32 0x7F800000#32 = ⊤ := by
  simp [Ideal.ofBits, Ideal.ieee]

/-- An extended real whose absolute value is below +∞ is real. -/
theorem isReal_of_abs_lt_top {x : EReal} (h : max x (-x) < ⊤) : IsReal x := by
  induction x using EReal.rec with
  | bot => simp at h
  | top => simp at h
  | coe r => exact ⟨r, rfl⟩

/-- The element fact of a finiteness precondition `|x| < +∞`, as the comparison prints it at the exact instance:
    when the comparison's bit is one, the element is real. -/
theorem isReal_of_abs_cmp {x : EReal}
    (h : Ideal.cmp .olt (max x (-x)) (Ideal.ofBits .f32 0x7F800000#32) = 1#1) : IsReal x := by
  rw [ofBits_inf] at h
  refine isReal_of_abs_lt_top ?_
  by_contra hn
  simp [Ideal.cmp, hn] at h

/-- The real embedding commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the embedding of a family of reals. -/
theorem exists_real_fun {ι : Type*} (f : ι → EReal) (h : ∀ i, IsReal (f i)) : ∃ g : ι → ℝ, ∀ i, f i = (g i : EReal) :=
  ⟨fun i => (h i).choose, fun i => (h i).choose_spec⟩

end LibIdealFinite
-- ==== Proof.LibFiniteInputs.lean ====
/-
  Reading a finiteness precondition back, on the extended reals. A precondition `jnp.all (|x| < +∞)` prints as the
  `and`-reduction, from the constant one into a scalar, of the comparison of `|x|` with the broadcast pattern of `+∞`.
  When that scalar is one, every element's comparison bit is one, and an extended real whose absolute value is below
  the top element is a real number. So the hypothesis makes every entry of `x` real, whatever the shape of `x` and
  the list of reduced axes.
-/
import Idealize.ShloMosaic.Lib.ReduceAll
import Idealize.ShloMosaic.Lib.ValueIdx
import proofs.«148036_j65008624992506_2_alg».proof.Proof.LibIdealFinite

noncomputable section

namespace LibFiniteInputs

open Idealize.ShloMosaic Idealize.ShloMosaic.ValueIdx LibIdealFinite

/-- The scalar shape has one index. -/
instance : Subsingleton (⟨0, ![]⟩ : Shape).Idx := ⟨fun _ _ => funext fun d => d.elim0⟩

/-- A scalar broadcast to any shape reads the scalar at every index. -/
theorem splat_apply {α : Type} {t : Shape} (bc : (⟨0, ![]⟩ : Shape).BroadcastsInDim t (![] : Fin 0 → Fin t.rank))
    (v : (⟨0, ![]⟩ : Shape).Idx → α) (i : t.Idx) : broadcastInDim t ![] bc v i = v ix0 :=
  congrArg v (funext fun a => a.elim0)

/-- If `jnp.all (|x| < +∞)` evaluates to one on the extended reals, every entry of `x` is real. -/
theorem all_finite_isReal {s : Shape} {axes : List (Fin s.rank)} (x : FVec Ideal s .f32)
    (bc : (⟨0, ![]⟩ : Shape).BroadcastsInDim s (![] : Fin 0 → Fin s.rank))
    (h : s.ReducesTo axes ⟨0, ![]⟩) (hu : 0 < (⟨0, ![]⟩ : Shape).numel)
    (e : Host.reduce IntOp.andi
          (cmpf .olt (Host.absf x) (broadcastInDim s ![] bc (constant (F := Ideal) ⟨0, ![]⟩ .f32 0x7F800000#32)))
          (constantI ⟨0, ![]⟩ 1 1#1) h hu ix0 = 1#1) :
    ∀ i, IsReal (x i) := by
  intro i
  have hi := Host.reduce_andi_all _ _ h hu ix0 e i
  exact isReal_of_abs_cmp hi

end LibFiniteInputs
-- ==== Proof.FiniteInputs.lean ====
/-
  The finiteness precondition read back: when `jnp.all (|logits| < +∞) & jnp.all (|targets| < +∞)` evaluates to one on
  the extended reals, every logit and every target is a real number.
-/
import proofs.«148036_j65008624992506_2_alg».proof.Pre_finite_inputs
import proofs.«148036_j65008624992506_2_alg».proof.Proof.LibFiniteInputs

noncomputable section

namespace Cert.FiniteInputs

open Idealize.ShloMosaic Idealize.ShloMosaic.ValueIdx LibIdealFinite LibFiniteInputs

/-- Under the precondition every entry of both argument arrays is real. -/
theorem real_of_pre [Cert.Pre_finite_inputs.Facts] (X T : FVec Ideal Cert.Pre_finite_inputs.S64x1x512x512 .f32)
    (h : Cert.Pre_finite_inputs.fn (F := Ideal) X T = fun _ => 1#1) :
    (∀ i, ∃ r : ℝ, X i = (r : EReal)) ∧ (∀ i, ∃ r : ℝ, T i = (r : EReal)) := by
  have h0 := congrFun h ix0
  dsimp only [Cert.Pre_finite_inputs.fn] at h0
  obtain ⟨hX, hT⟩ := IntOp.andi_eq_one.1 h0
  exact ⟨all_finite_isReal X _ _ _ hX, all_finite_isReal T _ _ _ hT⟩

end Cert.FiniteInputs

end
-- ==== Proof.lean ====
/-
  The kernel computes the loss of its reference.

  Both programs take a batch of 64 logit images X and 64 target images T of 512 × 512 entries and return one number: a
  weighted sum of a focal loss, a dice loss and a cross-entropy that weighs a boundary band six times.  Written over
  the extended reals (Proof/Spec.lean) this number is `tail` of five whole-batch sums.

  The reference computes the five sums directly (Proof/RefValue.lean reads its generated run one operation at a time;
  the band is its pad-and-slice stencil on truth values).  The kernel cuts the batch in 32 blocks of two images, lets
  each of two cores walk 16 blocks while five accumulators collect the blocks' sums, writes each core's accumulators out
  at its last step, and finishes on the host: add the two cores' rows and apply the same `tail`.  Proof/KPieces.lean,
  KAccum.lean and KOut.lean read the accumulators and the result array off the frame run; Proof/KBlock*.lean read one
  block's five sums (the stencil is the kernel's rotate-and-mask on the numbers 0 and 1; the focal term's square is a
  product where the reference has a power with exponent two, equal on real numbers — the one place where the inputs'
  finiteness is used); Proof/SumBridge.lean regroups the blocks' sums into the whole-batch sums, which only needs
  addition to be commutative and associative.  The idealization rewrote nothing, so `preserves` is trivial.
-/
import proofs.«148036_j65008624992506_2_alg».proof.Defs
import proofs.«148036_j65008624992506_2_alg».proof.Proof.Gen.Kernel
import proofs.«148036_j65008624992506_2_alg».proof.Proof.Gen.Kernel.Skeleton
import proofs.«148036_j65008624992506_2_alg».proof.Proof.Gen.Kernel.Launch
import proofs.«148036_j65008624992506_2_alg».proof.Proof.Gen.Kernel.Points
import proofs.«148036_j65008624992506_2_alg».proof.Proof.Gen.Kernel.Frame
import proofs.«148036_j65008624992506_2_alg».proof.Proof.Gen.KernelIdeal
import proofs.«148036_j65008624992506_2_alg».proof.Proof.Gen.KernelIdeal.Skeleton
import proofs.«148036_j65008624992506_2_alg».proof.Proof.Gen.KernelIdeal.Launch
import proofs.«148036_j65008624992506_2_alg».proof.Proof.Gen.KernelIdeal.Points
import proofs.«148036_j65008624992506_2_alg».proof.Proof.Gen.KernelIdeal.Frame
import proofs.«148036_j65008624992506_2_alg».proof.Proof.Gen.ReferenceIdeal
import proofs.«148036_j65008624992506_2_alg».proof.Proof.Gen.ReferenceIdeal.Run
import proofs.«148036_j65008624992506_2_alg».proof.Proof.Gen.ReferenceIdeal.Read
import proofs.«148036_j65008624992506_2_alg».proof.Proof.Gen.Pre_finite_inputs
import proofs.«148036_j65008624992506_2_alg».proof.Proof.KValue
import proofs.«148036_j65008624992506_2_alg».proof.Proof.RefValue
import proofs.«148036_j65008624992506_2_alg».proof.Proof.FiniteInputs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals, on finite inputs, both programs end with the loss of the two argument arrays. -/
theorem algebraic : Cert.algebraic_KernelIdeal_ReferenceIdeal := by
  intro m ρ m' ρ' hpre hagree
  have hreal := fun c => Cert.FiniteInputs.real_of_pre _ _ (hpre c)
  refine ⟨fun c => fun _ => Cert.Loss.loss (Cert.KernelIdeal.KValue.Xc m c) (Cert.KernelIdeal.KValue.Tc m c), ?_, ?_⟩
  · exact (θ_run Cert.KernelIdeal.defs _ _).mono
      (fun r h c => ⟨(h c).1.trans (Cert.KernelIdeal.KValue.kernel_value m c (hreal c).1 (hreal c).2), (h c).2.1, (h c).2.2⟩)
      (Cert.KernelIdeal.KOut.run m ρ)
  · refine (θ_run Cert.ReferenceIdeal.defs _ _).mono (fun r h c => ⟨(h c).1.trans ?_, (h c).2.1, (h c).2.2⟩)
      (Cert.ReferenceIdeal.Value.run (F := Ideal) m' ρ')
    rw [Cert.ReferenceIdeal.Read.val_main_v92_eq, (hagree c).1, (hagree c).2]
    funext i
    obtain rfl := eq_ix0 i
    exact Cert.RefValue.ref_value _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
